-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x50000 : Shape := ⟨3, ![1, 64, 50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S_ : Shape := ⟨0, ![]⟩

class Facts : Prop where
  bcast_S_S1x64x50000 : S_.BroadcastsInDim S1x64x50000 (![] : Fin 0 → Fin S1x64x50000.rank)
  reducesTo_S1x64x50000_S_d0_1_2 : S1x64x50000.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S1x64x50000 .f32) (main_arg1 : FVec F S64x64 .f32) (main_arg2 : FVec F S64 .f32) (main_arg3 : FVec F S64x32 .f32) (main_arg4 : FVec F S32 .f32) (main_arg5 : IVec S2x800000 32) : IVec S_ 1 :=
  let main_v0 : FVec F S1x64x50000 .f32 := Host.absf main_arg0
  let main_cst : FVec F S_ .f32 := constant S_ .f32 0x7F800000#32
  let main_v1 : FVec F S1x64x50000 .f32 := broadcastInDim S1x64x50000 ![] bcast_S_S1x64x50000 main_cst
  let main_v2 : IVec S1x64x50000 1 := cmpf .olt main_v0 main_v1
  let main_c : IVec S_ 1 := constantI S_ 1 1#1
  let main_v3 : IVec S_ 1 := (fun x v => Host.reduce IntOp.andi x v reducesTo_S1x64x50000_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S1x64x50000 : Shape := ⟨3, ![1, 64, 50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S1x50000x64 : Shape := ⟨3, ![1, 50000, 64]⟩
abbrev S50000x64 : Shape := ⟨2, ![50000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S10000x64 : Shape := ⟨2, ![10000, 64]⟩
abbrev S850000x64 : Shape := ⟨2, ![850000, 64]⟩
abbrev S1x64 : Shape := ⟨2, ![1, 64]⟩
abbrev S50000x32 : Shape := ⟨2, ![50000, 32]⟩
abbrev S10000x32 : Shape := ⟨2, ![10000, 32]⟩
abbrev S850000x32 : Shape := ⟨2, ![850000, 32]⟩
abbrev S51200x32 : Shape := ⟨2, ![51200, 32]⟩
abbrev S1x32 : Shape := ⟨2, ![1, 32]⟩
abbrev S32x51200 : Shape := ⟨2, ![32, 51200]⟩
abbrev S6400x32 : Shape := ⟨2, ![6400, 32]⟩
abbrev S32x6400 : Shape := ⟨2, ![32, 6400]⟩
abbrev S32x50000 : Shape := ⟨2, ![32, 50000]⟩
abbrev S1x32x50000 : Shape := ⟨3, ![1, 32, 50000]⟩

abbrev nBuf : Space → Nat
  | .hbm => 74
  | .vmem => 16
  | .smem => 0
  | _ => 0

abbrev bufTy : (tb : Table) → Fin (tcTables nBuf tb) → BufTy
  | .hbm, ⟨0, _⟩ => ⟨S1x64x50000, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x800000, .i32⟩
  | .hbm, ⟨6, _⟩ => ⟨S1x50000x64, .f32⟩
  | .hbm, ⟨7, _⟩ => ⟨S50000x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x64, .f32⟩
  | .hbm, ⟨42, _⟩ => ⟨S_, .f32⟩
  | .hbm, ⟨43, _⟩ => ⟨S50000x64, .f32⟩
  | .hbm, ⟨44, _⟩ => ⟨S850000x1, .i32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S1x64, .f32⟩
  | .hbm, ⟨49, _⟩ => ⟨S50000x32, .f32⟩
  | .hbm, ⟨50, _⟩ => ⟨S50000x32, .f32⟩
  | .hbm, ⟨51, _⟩ => ⟨S50000x32, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x32, .f32⟩
  | .hbm, ⟨61, _⟩ => ⟨S_, .f32⟩
  | .hbm, ⟨62, _⟩ => ⟨S50000x32, .f32⟩
  | .hbm, ⟨63, _⟩ => ⟨S850000x1, .i32⟩
  | .hbm, ⟨64, _⟩ => ⟨S50000x32, .f32⟩
  | .hbm, ⟨65, _⟩ => ⟨S50000x32, .f32⟩
  | .hbm, ⟨66, _⟩ => ⟨S50000x32, .f32⟩
  | .hbm, ⟨67, _⟩ => ⟨S_, .i32⟩
  | .hbm, ⟨68, _⟩ => ⟨S_, .f32⟩
  | .hbm, ⟨69, _⟩ => ⟨S51200x32, .f32⟩
  | .hbm, ⟨70, _⟩ => ⟨S1x32, .f32⟩
  | .hbm, ⟨71, _⟩ => ⟨S32x51200, .f32⟩
  | .hbm, ⟨72, _⟩ => ⟨S32x50000, .f32⟩
  | .hbm, ⟨73, _⟩ => ⟨S1x32x50000, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S6400x32, .f32⟩
  | .local _ .vmem, ⟨12, _⟩ => ⟨S6400x32, .f32⟩
  | .local _ .vmem, ⟨13, _⟩ => ⟨S1x32, .f32⟩
  | .local _ .vmem, ⟨14, _⟩ => ⟨S32x6400, .f32⟩
  | .local _ .vmem, ⟨15, _⟩ => ⟨S32x6400, .f32⟩
  | _, _ => ⟨S1x64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S6400x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x6400 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S1x64x50000_S1x50000x64_0_2_1 : S1x64x50000.Transposes [0, 2, 1] S1x50000x64
  shapeCasts_S1x50000x64_S50000x64 : S1x50000x64.ShapeCasts S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  pads_S50000x32_S51200x32_012000_000 : S50000x32.Pads (![0, 0] : Fin 2 → Nat) ![1200, 0] ![0, 0] S51200x32
  h_S_ : 0 < S_.numel
  shapeCasts_S32_S1x32 : S32.ShapeCasts S1x32
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6400x32 : S1x32.Broadcasts S6400x32
  transposes_S6400x32_p1_0_S32x6400 : S6400x32.Transposes [1, 0] S32x6400
  inb_S32x6400_S32x6400_0_0 : ∀ a, (![0, 0] : Fin 2 → Nat) a + S32x6400.size a ≤ S32x6400.size a
  h_S32x6400 : 0 < S32x6400.numel
  slices_S32x51200_S32x50000_0_0 : S32x51200.Slices ![0, 0] S32x50000
  shapeCasts_S32x50000_S1x32x50000 : S32x50000.ShapeCasts S1x32x50000
  scatter_S50000_S850000x1_S850000_n_0_0_1_wf : ScatterDims.WF S50000 S850000x1 S850000 [] [0] [0] 1
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x32_S10000x32_1_0_0_1_n_n_wf : DotDims.WF S10000x64 S64x32 S10000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S50000x32.size a
  hwx1_3 : ∀ i : grid1.Coords, EltTy.bits .f32 = 32 ∨ (Rect.block (s := S50000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x32.size a ≤ S51200x32.size a
  hwx2_0 : ∀ i : grid2.Coords, EltTy.bits .f32 = 32 ∨ (Rect.block (s := S51200x32) S6400x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x6400.size a ≤ S32x51200.size a
  hwx2_2 : ∀ i : grid2.Coords, EltTy.bits .f32 = 32 ∨ (Rect.block (s := S32x51200) S32x6400.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_v1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S6400x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S32x6400.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x64x50000 : Shape := ⟨3, ![1, 64, 50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x800000 : Shape := ⟨2, ![2, 800000]⟩
abbrev S1x50000x64 : Shape := ⟨3, ![1, 50000, 64]⟩
abbrev S50000x64 : Shape := ⟨2, ![50000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S1x50000x32 : Shape := ⟨3, ![1, 50000, 32]⟩
abbrev S1x32x50000 : Shape := ⟨3, ![1, 32, 50000]⟩

abbrev nBuf : Space → Nat
  | .hbm => 129
  | .vmem => 0
  | .smem => 0
  | _ => 0

abbrev hbmTy0_0 (i : Nat) : BufTy := match i % 128 with
  | 0 => ⟨S1x64x50000, .f32⟩
  | 1 => ⟨S64x64, .f32⟩
  | 2 => ⟨S64, .f32⟩
  | 3 => ⟨S64x32, .f32⟩
  | 4 => ⟨S32, .f32⟩
  | 5 => ⟨S2x800000, .i32⟩
  | 6 => ⟨S1x50000x64, .f32⟩
  | 7 => ⟨S50000x64, .f32⟩
  | 8 => ⟨S1x800000, .i32⟩
  | 9 => ⟨S800000, .i32⟩
  | 10 => ⟨S1x800000, .i32⟩
  | 11 => ⟨S800000, .i32⟩
  | 12 => ⟨S50000x64, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x32, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x32, .f32⟩
  | 117 => ⟨S850000x1, .f32⟩
  | 118 => ⟨S850000x32, .f32⟩
  | 119 => ⟨S850000x32, .f32⟩
  | 120 => ⟨S_, .f32⟩
  | 121 => ⟨S50000x32, .f32⟩
  | 122 => ⟨S850000x1, .i32⟩
  | 123 => ⟨S50000x32, .f32⟩
  | 124 => ⟨S1x32, .f32⟩
  | 125 => ⟨S50000x32, .f32⟩
  | 126 => ⟨S50000x32, .f32⟩
  | 127 => ⟨S1x50000x32, .f32⟩
  | _ => ⟨S1x64x50000, .f32⟩

abbrev hbmTy0_1 (i : Nat) : BufTy := match i % 128 with
  | 0 => ⟨S1x32x50000, .f32⟩
  | _ => ⟨S1x64x50000, .f32⟩

abbrev hbmTy (i : Nat) : BufTy := match i / 128 with
  | 0 => hbmTy0_0 i
  | 1 => hbmTy0_1 i
  | _ => ⟨S1x64x50000, .f32⟩

abbrev bufTy : (tb : Table) → Fin (tcTables nBuf tb) → BufTy
  | .hbm, ⟨i, _⟩ => hbmTy i
  | _, _ => ⟨S1x64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  transposes_S1x64x50000_S1x50000x64_0_2_1 : S1x64x50000.Transposes [0, 2, 1] S1x50000x64
  shapeCasts_S1x50000x64_S50000x64 : S1x50000x64.ShapeCasts S50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S50000x32_S1x50000x32 : S50000x32.ShapeCasts S1x50000x32
  transposes_S1x50000x32_S1x32x50000_0_2_1 : S1x50000x32.Transposes [0, 2, 1] S1x32x50000
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KRun.lean ====
/-
  The idealized kernel program's run with its RESULT named. The generated frame certificate proves that every weakly
  fair execution of @main terminates with the argument arrays unchanged; the same launch argument, read at one more
  buffer, says what the result array holds at the end: the contents the fold through @main's segments — host
  stretches and the three pipelined regions — leaves at the result's buffer (`Gen.W11`).
-/
import proofs.«129775_j3642132267298_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the contents the fold
    through the segments leaves at its buffer, and every argument array ends as launched. -/
theorem run_fold : θ_run defs (onTc (τ := τ) (main (F := F))) ⟨m, fun _ => 0, ρ⟩ (fun r => ∀ c : Dev nD,
      r.2.mem ((c.tc : Thread nD τ).loc main_v53) = W11 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v53 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunValue

end
-- ==== Proof.KDefs.lean ====
/-
  The host side of the idealized kernel program as named functions of the argument arrays, one per value the three
  regions and the final layout need: the node features `h0` (the input transposed and flattened to [nodes, 64]); the
  edge lists with the self-loops appended, `srcs` and `dsts`; the in-degree `deg` (ones scattered by target), the
  scale `dinv` (its inverse square root where the degree is positive, else zero) and that scale as a column
  `dcol`; the sources as gather start indices `sidx` (a negative index wrapped by the node count); and the
  aggregation of one layer `agg64` / `agg32`: the rows scaled by `dcol`, gathered at the sources, summed into their
  targets, scaled by `dcol` again.
-/
import proofs.«129775_j3642132267298_2_alg».proof.Proof.Gen.KernelIdeal
import Idealize.ShloMosaic.Lib.StableHlo.Run

set_option maxRecDepth 16384

noncomputable section

namespace Cert.KernelIdeal.RunValue

open Cert.KernelIdeal Cert.KernelIdeal.Facts₀ Cert.KernelIdeal.Facts
open Idealize.ShloMosaic Idealize.ShloMosaic.TcCoe Idealize.SL.Sem Idealize.ShloMosaic.StableHlo

variable {F : FTy → Type} [FloatOps F]

/-- The input [1, 64, nodes] as node features [nodes, 64]. -/
def h0 (x : (⟨S1x64x50000, .f32⟩ : BufTy).Contents (Elt F)) : (⟨S50000x64, .f32⟩ : BufTy).Contents (Elt F) :=
  shapeCast _ (transpose S1x50000x64 [0, 2, 1] x transposes_S1x64x50000_S1x50000x64_0_2_1) shapeCasts_S1x50000x64_S50000x64

/-- Row `r` of the edge index array, followed by the self-loops `0 … nodes-1`. -/
def srcs (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0
def dsts (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- The targets as scatter indices [edges, 1]. -/
def didx (ei : (⟨S2x800000, .i32⟩ : BufTy).Contents (Elt F)) : (⟨S850000x1, .i32⟩ : BufTy).Contents (Elt F) :=
  broadcastInDim S850000x1 ![0] bcast_S850000_S850000x1_0 (dsts (F := F) ei)

/-- The in-degree of every node, self-loop included: ones summed into their targets. -/
def deg (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (didx (F := F) ei) (broadcastInDim S850000 ![] bcast_S_S850000 (constant S_ .f32 0x3F800000#32))

/-- `deg ^ (-1/2)` where the degree is positive, zero elsewhere. -/
def dinv (ei : (⟨S2x800000, .i32⟩ : BufTy).Contents (Elt F)) : (⟨S50000, .f32⟩ : BufTy).Contents (Elt F) :=
  select (cmpf (F := F) .ogt (deg (F := F) ei) (broadcastInDim S50000 ![] bcast_S_S50000 (constant S_ .f32 0x00000000#32)))
    (Host.rsqrt (deg (F := F) ei)) (broadcastInDim S50000 ![] bcast_S_S50000 (id (constant S_ .f32 0x00000000#32)))

/-- The scale as a column [nodes, 1]. -/
def dcol (ei : (⟨S2x800000, .i32⟩ : BufTy).Contents (Elt F)) : (⟨S50000x1, .f32⟩ : BufTy).Contents (Elt F) :=
  broadcastInDim S50000x1 ![0] bcast_S50000_S50000x1_0 (dinv (F := F) ei)

/-- The sources as gather start indices [edges, 1]: a negative index is wrapped by the node count first. -/
def sidx (ei : (⟨S2x800000, .i32⟩ : BufTy).Contents (Elt F)) : (⟨S850000x1, .i32⟩ : BufTy).Contents (Elt F) :=
  broadcastInDim S850000x1 ![0] bcast_S850000_S850000x1_0
    (select (cmpi .slt (srcs (F := F) ei) (broadcastInDim S850000 ![] bcast_S_S850000 (constantI S_ 32 0#32)))
      (addi (srcs (F := F) ei) (broadcastInDim S850000 ![] bcast_S_S850000 (constantI S_ 32 50000#32))) (srcs (F := F) ei))

/-- One layer's aggregation at 64 features: scale the rows, gather them at the sources, sum them into the targets,
    scale the rows again. -/
def agg64 (H : (⟨S50000x64, .f32⟩ : BufTy).Contents (Elt F)) (ei : (⟨S2x800000, .i32⟩ : BufTy).Contents (Elt F)) :
    (⟨S50000x64, .f32⟩ : BufTy).Contents (Elt F) :=
  mulf (Host.scatterAdd scatter_S50000x64_S850000x1_S850000x64_1_0_0_1 (broadcastInDim S50000x64 ![] bcast_S_S50000x64 (constant S_ .f32 0x00000000#32))
      (didx (F := F) ei)
      (Host.gather gather_S50000x64_S850000x1_S850000x64_1_0_n_n_0_1_164
        (mulf H (broadcastInDim S50000x64 ![0, 1] bcast_S50000x1_S50000x64_0_1 (dcol (F := F) ei))) (sidx (F := F) ei)))
    (broadcastInDim S50000x64 ![0, 1] bcast_S50000x1_S50000x64_0_1 (dcol (F := F) ei))

/-- The same at 32 features. -/
def agg32 (H : (⟨S50000x32, .f32⟩ : BufTy).Contents (Elt F)) (ei : (⟨S2x800000, .i32⟩ : BufTy).Contents (Elt F)) :
    (⟨S50000x32, .f32⟩ : BufTy).Contents (Elt F) :=
  mulf (Host.scatterAdd scatter_S50000x32_S850000x1_S850000x32_1_0_0_1 (broadcastInDim S50000x32 ![] bcast_S_S50000x32 (constant S_ .f32 0x00000000#32))
      (didx (F := F) ei)
      (Host.gather gather_S50000x32_S850000x1_S850000x32_1_0_n_n_0_1_132
        (mulf H (broadcastInDim S50000x32 ![0, 1] bcast_S50000x1_S50000x32_0_1 (dcol (F := F) ei))) (sidx (F := F) ei)))
    (broadcastInDim S50000x32 ![0, 1] bcast_S50000x1_S50000x32_0_1 (dcol (F := F) ei))

/-- The aggregated [nodes, 32] array padded with 1200 zero rows, as the last region reads it. -/
def padded (a : (⟨S50000x32, .f32⟩ : BufTy).Contents (Elt F)) : (⟨S51200x32, .f32⟩ : BufTy).Contents (Elt F) :=
  pad S51200x32 ![0, 0] ![1200, 0] ![0, 0] a (sitofp .f32 (constantI S_ 32 0#32)) pads_S50000x32_S51200x32_012000_000 h_S_

/-- The last region's [32, 51200] output cut to its first 50000 columns and given the leading unit axis. -/
def tail (o : (⟨S32x51200, .f32⟩ : BufTy).Contents (Elt F)) : (⟨S1x32x50000, .f32⟩ : BufTy).Contents (Elt F) :=
  shapeCast _ (extractStridedSlice S32x50000 ![0, 0] o slices_S32x51200_S32x50000_0_0) shapeCasts_S32x50000_S1x32x50000

end Cert.KernelIdeal.RunValue

end
-- ==== Proof.KStages.lean ====
/-
  What each stretch of host operations of the idealized kernel program leaves in the buffers the regions and the later
  stretches read, as the named functions of the argument arrays (`h0`, `srcs`, `dsts`, `dcol`, `agg64`, `agg32`,
  `padded`, `tail`), from ANY contents `Wb` at the stretch's start; and that a stretch leaves alone the buffers it does
  not write. Each is the fold through the stretch's operations evaluated at one buffer.
-/
import proofs.«129775_j3642132267298_2_alg».proof.Proof.Gen.KernelIdeal.Launch
import proofs.«129775_j3642132267298_2_alg».proof.Proof.KDefs

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo

variable {F : FTy → Type} [FloatOps F]
variable (Wb : Valuation τ sig (Elt F))

/-! ## Before the first region: the operations on the input, the edge lists and the degrees -/

theorem pre_v1 : StableHlo.after hostOps0_2 (StableHlo.after hostOps0_1 (StableHlo.after hostOps0 Wb)) (Proc.devRef .tc main_v1) = h0 (F := F) (Wb (Proc.devRef .tc main_arg0)) := by
  after_results; rfl
theorem pre_v7 : StableHlo.after hostOps0_2 (StableHlo.after hostOps0_1 (StableHlo.after hostOps0 Wb)) (Proc.devRef .tc main_v7) = srcs (F := F) (Wb (Proc.devRef .tc main_arg5)) := by
  after_results; rfl
theorem pre_v8 : StableHlo.after hostOps0_2 (StableHlo.after hostOps0_1 (StableHlo.after hostOps0 Wb)) (Proc.devRef .tc main_v8) = dsts (F := F) (Wb (Proc.devRef .tc main_arg5)) := by
  after_results; rfl
set_option maxHeartbeats 8000000 in
theorem pre_v17 : StableHlo.after hostOps0_2 (StableHlo.after hostOps0_1 (StableHlo.after hostOps0 Wb)) (Proc.devRef .tc main_v17) = dcol (F := F) (Wb (Proc.devRef .tc main_arg5)) := by
  after_results; rfl
theorem pre_arg1 : StableHlo.after hostOps0_2 (StableHlo.after hostOps0_1 (StableHlo.after hostOps0 Wb)) (Proc.devRef .tc main_arg1) = Wb (Proc.devRef .tc main_arg1) := by
  after_results
theorem pre_arg2 : StableHlo.after hostOps0_2 (StableHlo.after hostOps0_1 (StableHlo.after hostOps0 Wb)) (Proc.devRef .tc main_arg2) = Wb (Proc.devRef .tc main_arg2) := by
  after_results
theorem pre_arg3 : StableHlo.after hostOps0_2 (StableHlo.after hostOps0_1 (StableHlo.after hostOps0 Wb)) (Proc.devRef .tc main_arg3) = Wb (Proc.devRef .tc main_arg3) := by
  after_results
theorem pre_arg4 : StableHlo.after hostOps0_2 (StableHlo.after hostOps0_1 (StableHlo.after hostOps0 Wb)) (Proc.devRef .tc main_arg4) = Wb (Proc.devRef .tc main_arg4) := by
  after_results

/-! ## Between the first and the second region: the first layer's aggregation, and the bias as a row -/

set_option maxHeartbeats 8000000 in
theorem mid_v32 (ei : (⟨S2x800000, .i32⟩ : BufTy).Contents (Elt F)) (h17 : Wb (Proc.devRef .tc main_v17) = dcol (F := F) ei)
    (h7 : Wb (Proc.devRef .tc main_v7) = srcs (F := F) ei) (h8 : Wb (Proc.devRef .tc main_v8) = dsts (F := F) ei) :
    StableHlo.after hostOps1 Wb (Proc.devRef .tc main_v32) = agg64 (F := F) (Wb (Proc.devRef .tc main_v18)) ei := by
  after_results; rw [h17, h7, h8]; rfl
theorem mid_v33 : StableHlo.after hostOps1 Wb (Proc.devRef .tc main_v33) = shapeCast S1x64 (Wb (Proc.devRef .tc main_arg2)) Facts₀.shapeCasts_S64_S1x64 := by
  after_results; rfl
theorem mid_v7 : StableHlo.after hostOps1 Wb (Proc.devRef .tc main_v7) = Wb (Proc.devRef .tc main_v7) := by
  after_results
theorem mid_v8 : StableHlo.after hostOps1 Wb (Proc.devRef .tc main_v8) = Wb (Proc.devRef .tc main_v8) := by
  after_results
theorem mid_v17 : StableHlo.after hostOps1 Wb (Proc.devRef .tc main_v17) = Wb (Proc.devRef .tc main_v17) := by
  after_results
theorem mid_arg3 : StableHlo.after hostOps1 Wb (Proc.devRef .tc main_arg3) = Wb (Proc.devRef .tc main_arg3) := by
  after_results
theorem mid_arg4 : StableHlo.after hostOps1 Wb (Proc.devRef .tc main_arg4) = Wb (Proc.devRef .tc main_arg4) := by
  after_results

/-! ## Between the second and the third region: the second layer's aggregation padded, and the bias as a row -/

set_option maxHeartbeats 8000000 in
theorem post_v49 (ei : (⟨S2x800000, .i32⟩ : BufTy).Contents (Elt F)) (h17 : Wb (Proc.devRef .tc main_v17) = dcol (F := F) ei)
    (h7 : Wb (Proc.devRef .tc main_v7) = srcs (F := F) ei) (h8 : Wb (Proc.devRef .tc main_v8) = dsts (F := F) ei) :
    StableHlo.after hostOps2_2 (StableHlo.after hostOps2_1 (StableHlo.after hostOps2 Wb)) (Proc.devRef .tc main_v49) = padded (F := F) (agg32 (F := F) (Wb (Proc.devRef .tc main_v34)) ei) := by
  after_results; rw [h17, h7, h8]; rfl
theorem post_v50 : StableHlo.after hostOps2_2 (StableHlo.after hostOps2_1 (StableHlo.after hostOps2 Wb)) (Proc.devRef .tc main_v50) = shapeCast S1x32 (Wb (Proc.devRef .tc main_arg4)) Facts₀.shapeCasts_S32_S1x32 := by
  after_results; rfl

/-! ## After the third region: the cut to the real columns and the leading unit axis -/

theorem last_v53 : StableHlo.after hostOps3 Wb (Proc.devRef .tc main_v53) = tail (F := F) (Wb (Proc.devRef .tc main_v51)) := by
  after_results; rfl

end Cert.KernelIdeal.RunValue

end
-- ==== Proof.Spec.lean ====
/-
  The three dense stages of the two-layer graph convolution as whole-array functions over the extended reals,
  generic in the extents: a matrix product `mm`, the product of a rectified biased array with a weight matrix
  `brm`, and a biased array read transposed `bt`. Each entry is written index by index; the rectifier's zero is kept
  as the float word both programs print (it is never evaluated: the same word stands on both sides).
-/
import Idealize.ShloMosaic.Lib.ValueIdx

noncomputable section

open scoped BigOperators

namespace Cert.Spec

open Idealize.ShloMosaic Idealize.ShloMosaic.ValueIdx

/-- Entry `(r, c)` of the product of `x : [R, K]` with `w : [K, C]`: the sum over `k` of `x r k * w k c`. -/
def mm {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (n0 := R) (i 0) k) * w (ix2 (n1 := C) k (i 1))

/-- Entry `(r, c)` of `relu (a + b) · w`, the row `b : [1, K]` added to every row of `a : [R, K]`: the sum over `k` of
    `max (a r k + b 0 k) 0 * w k c`. -/
def brm {R K C : Nat} (a : (⟨2, ![R, K]⟩ : Shape).Idx → EReal) (b : (⟨2, ![1, K]⟩ : Shape).Idx → EReal)
    (w : (⟨2, ![K, C]⟩ : Shape).Idx → EReal) : (⟨2, ![R, C]⟩ : Shape).Idx → EReal :=
  fun i => ∑ k : Fin K, max (a (ix2 (n0 := R) (i 0) k) + b (ix2 (0 : Fin 1) k)) (Ideal.ofBits .f32 0x00000000#32)
    * w (ix2 (n1 := C) k (i 1))

/-- Entry `(c, r)` of the transpose of `a + b`, the row `b : [1, C]` added to every row of `a : [R, C]`:
    `a r c + b 0 c`. -/
def bt {R C : Nat} (a : (⟨2, ![R, C]⟩ : Shape).Idx → EReal) (b : (⟨2, ![1, C]⟩ : Shape).Idx → EReal) :
    (⟨2, ![C, R]⟩ : Shape).Idx → EReal :=
  fun i => a (ix2 (n0 := R) (n1 := C) (i 1) (i 0)) + b (ix2 (0 : Fin 1) (n1 := C) (i 0))

theorem mm_apply {R K C : Nat} (x : (⟨2, ![R, K]⟩ : Shape).Idx → EReal) (w : (⟨2, ![K, C]⟩ : Shape).Idx → EReal)
    (r : Fin R) (c : Fin C) : mm x w (ix2 r c) = ∑ k : Fin K, x (ix2 r k) * w (ix2 k c) := rfl

theorem brm_apply {R K C : Nat} (a : (⟨2, ![R, K]⟩ : Shape).Idx → EReal) (b : (⟨2, ![1, K]⟩ : Shape).Idx → EReal)
    (w : (⟨2, ![K, C]⟩ : Shape).Idx → EReal) (r : Fin R) (c : Fin C) :
    brm a b w (ix2 r c) = ∑ k : Fin K, max (a (ix2 r k) + b (ix2 (0 : Fin 1) k)) (Ideal.ofBits .f32 0x00000000#32) * w (ix2 k c) := rfl

theorem bt_apply {R C : Nat} (a : (⟨2, ![R, C]⟩ : Shape).Idx → EReal) (b : (⟨2, ![1, C]⟩ : Shape).Idx → EReal)
    (c : Fin C) (r : Fin R) : bt a b (ix2 c r) = a (ix2 r c) + b (ix2 (0 : Fin 1) c) := rfl

end Cert.Spec

end
-- ==== Proof.KResult.lean ====
/-
  The idealized kernel program's result as ONE function of the argument arrays over the extended reals: the third
  region's output `bt` (the padded second aggregation plus the second bias, transposed) cut to the real columns; the
  second aggregation taken of `relu (a + b1) · W2` (`brm`) of the first aggregation; the first aggregation taken of
  the features times `W1` (`mm`).
-/
import proofs.«129775_j3642132267298_2_alg».proof.Proof.KDefs
import proofs.«129775_j3642132267298_2_alg».proof.Proof.Spec

noncomputable section

namespace Cert.KernelIdeal.RunValue

open Cert.KernelIdeal Cert.KernelIdeal.Facts₀ Cert.KernelIdeal.Facts
open Idealize.ShloMosaic Idealize.ShloMosaic.TcCoe Idealize.SL.Sem

/-- The kernel program's result array as a function of its six arguments. -/
def result (x : (⟨S1x64x50000, .f32⟩ : BufTy).Contents (Elt Ideal)) (W1 : (⟨S64x64, .f32⟩ : BufTy).Contents (Elt Ideal))
    (b1 : (⟨S64, .f32⟩ : BufTy).Contents (Elt Ideal)) (W2 : (⟨S64x32, .f32⟩ : BufTy).Contents (Elt Ideal))
    (b2 : (⟨S32, .f32⟩ : BufTy).Contents (Elt Ideal)) (ei : (⟨S2x800000, .i32⟩ : BufTy).Contents (Elt Ideal)) :
    (⟨S1x32x50000, .f32⟩ : BufTy).Contents (Elt Ideal) :=
  tail (F := Ideal) (Cert.Spec.bt
    (padded (F := Ideal) (agg32 (F := Ideal)
      (Cert.Spec.brm (agg64 (F := Ideal) (Cert.Spec.mm (h0 (F := Ideal) x) W1) ei) (shapeCast S1x64 b1 shapeCasts_S64_S1x64) W2) ei))
    (shapeCast S1x32 b2 shapeCasts_S32_S1x32))

end Cert.KernelIdeal.RunValue

end
-- ==== Proof.Region0.lean ====
/-
  The first dense stage as a whole-array function: after its pipeline has run over the five row blocks, the result array
  [50000, 64] is the matrix product of the left array [50000, 64] with the right array [64, 64], as the stage finds them.
  The body's arithmetic at an entry of a block is the sum over the contraction axis of the products of the staged
  blocks' entries (the roundings to the narrow format and the same-shape cast are the identity over the extended
  reals, the accumulator is zero); grid point `t` stages row block `t` of the left array, the whole right array and row
  block `t` of the result, so what it writes back is block `t` of the product; the five blocks cover the result array.
-/
import proofs.«129775_j3642132267298_2_alg».proof.Proof.Gen.KernelIdeal.Frame
import proofs.«129775_j3642132267298_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access, however spelt. -/
theorem zero_offsets : (![0, 0] : Fin 2 → Nat) = fun _ => 0 := funext fun a => by fin_cases a <;> rfl

theorem lhs0_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs0_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs0_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs0_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's arithmetic at entry `(p, q)` of its block: the sum over `k` of `x0 p k * x1 k q`. -/
theorem pay0_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er, truncf_apply, truncf_apply, shapeCast_self]

/-- The body's arithmetic at entry `(p, q)` of its block, when row `p` of the left block is row `r` of the left array
    and the right block is the right array: entry `(r, q)` of the product. -/
theorem point0 (x0 : Vec Ideal S10000x64 .f32) (x1 : Vec Ideal S64x64 .f32)
    (A : S50000x64.Idx → EReal) (B : S64x64.Idx → EReal) (p : Fin 10000) (q : Fin 64) (r : Fin 50000)
    (h0 : ∀ k : Fin 64, x0 (ix2 p k) = A (ix2 r k)) (h1 : ∀ k : Fin 64, x1 (ix2 k q) = B (ix2 k q)) :
    k0_pay1 x0 x1 (ix2 p q) = Cert.Spec.mm A B (ix2 r q) := by
  rw [pay0_apply, Cert.Spec.mm_apply]
  exact Finset.sum_congr rfl fun k _ => by rw [h0 k, h1 k]

/-- The printed index maps over the grid: point `t` stages row block `t` of the left operand and of the result, and the
    whole right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the region finds them. -/
theorem flushed0_eq (c : Dev nD) (t : Fin cfg0.N) :
    (dat0 (F := Ideal) V c).flushed 2 t = ((cfg0.win 2).blk t).view.read (Elt Ideal) (Cert.Spec.mm (V c main_v1) (V c main_arg1)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨e0, e1, e2, e3, e4, e5⟩ := idx_facts0 t
  have hN : cfg0.N = 5 := rfl
  have ht : t.val < 5 := t.isLt
  funext j
  obtain ⟨p, q, rfl⟩ : ∃ (p : Fin 10000) (q : Fin 64), j = ix2 p q := ⟨j 0, j 1, eq_ix2 j⟩
  have hr : t.val * 10000 + p.val < 50000 := by have := p.isLt; omega
  have hemb : ((cfg0.win 2).blk t).view.emb (ix2 p q) = ix2 (⟨t.val * 10000 + p.val, hr⟩ : Fin 50000) q := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 64 + 1 * q.val = q.val; rw [e5]; omega
  refine (point0 (iblk0 V c 0 t) (iblk0 V c 1 t) (V c main_v1) (V c main_arg1) p q ⟨t.val * 10000 + p.val, hr⟩ (fun k => ?_) (fun k => ?_)).trans
    (congrArg (Cert.Spec.mm (V c main_v1) (V c main_arg1)) hemb.symm)
  · show V c main_v1 (((cfg0.win 0).blk t).view.emb (ix2 p k)) = V c main_v1 (ix2 (⟨t.val * 10000 + p.val, hr⟩ : Fin 50000) k)
    refine congrArg (V c main_v1) (funext fun a => Fin.ext ?_)
    match a with
    | ⟨0, _⟩ => show win0_0.index t (0 : Fin 2) * 10000 + 1 * p.val = t.val * 10000 + p.val; rw [e0]; omega
    | ⟨1, _⟩ => show win0_0.index t (1 : Fin 2) * 64 + 1 * k.val = k.val; rw [e1]; omega
  · show V c main_arg1 (((cfg0.win 1).blk t).view.emb (ix2 k q)) = V c main_arg1 (ix2 k q)
    refine congrArg (V c main_arg1) (funext fun a => Fin.ext ?_)
    match a with
    | ⟨0, _⟩ => show win0_1.index t (0 : Fin 2) * 64 + 1 * k.val = k.val; rw [e2]; omega
    | ⟨1, _⟩ => show win0_1.index t (1 : Fin 2) * 64 + 1 * q.val = q.val; rw [e3]; omega

/-- An index of the result array is in point `t`'s block iff each coordinate is in the block's range on its axis. -/
theorem mem_blk0 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v18).slice (win0_2.rect t)).set ↔ _
  rw [View.set_slice_whole, Rect.mem_set_unit]
  exact Iff.rfl

/-- Every index of the result array is in some point's block: row `r` is in row block `r / 10000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 10000 := ⟨⟨(i 0).val / 10000, by show _ < 5; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- THE RESULT ARRAY after the region's pipeline has run over its grid: the product of the left array with the right
    array, as the region finds them. -/
theorem arr0 (c : Dev nD) :
    (dat0 (F := Ideal) V c).arrAt 2 cfg0.N = Cert.Spec.mm (V c main_v1) (V c main_arg1) :=
  (dat0 (F := Ideal) V c).arrAt_eq_of_cover 2 (Cert.Spec.mm (V c main_v1) (V c main_arg1)) (fun t _ => flushed0_eq V c t) cover0

end Cert.KernelIdeal.RegionValue

end
-- ==== Proof.Region1.lean ====
/-
  The second dense stage as a whole-array function: after its pipeline has run over the five row blocks, the result
  array [50000, 32] is the first array [50000, 64] with the bias row [1, 64] added to every row, rectified, times the
  weight matrix [64, 32], as the stage finds the three. The body's arithmetic at an entry of a block is the sum over the
  contraction axis of `max (a + b) 0 * w` on the staged blocks' entries (the roundings to the narrow format and the
  same-shape casts are the identity over the extended reals, the accumulator is zero, the rectifier's zero stays the
  float word); grid point `t` stages row block `t` of the first array, the whole bias row and weight matrix and row block
  `t` of the result, so what it writes back is block `t` of that function; the five blocks cover the result array.
-/
import proofs.«129775_j3642132267298_2_alg».proof.Proof.Gen.KernelIdeal.Frame
import proofs.«129775_j3642132267298_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access, however spelt. -/
theorem zero_offsets1 : (![0, 0] : Fin 2 → Nat) = fun _ => 0 := funext fun a => by fin_cases a <;> rfl

theorem lhs1_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs1_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs1_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs1_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The row `b : [1, 64]` spread over the rows of a [10000, 64] block, read at `(p, k)`: `b 0 k`. -/
theorem row_spread_apply (b : Vec Ideal S1x64 .f32) (p : Fin 10000) (k : Fin 64) :
    broadcastTo S10000x64 b broadcasts_S1x64_S10000x64 (ix2 p k) = b (ix2 (0 : Fin 1) k) :=
  broadcastTo_apply b broadcasts_S1x64_S10000x64 (ix2 p k) (ix2 (0 : Fin 1) k) (fun a => by
    match a with
    | ⟨0, _⟩ => rfl
    | ⟨1, _⟩ => rfl)

/-- The body's arithmetic at entry `(p, q)` of its block: the sum over `k` of `max (x0 p k + x1 0 k) 0 * x2 k q`, the
    rectifier's zero kept as the float word. -/
theorem pay1_apply (x0 : Vec Ideal S10000x64 .f32) (x1 : Vec Ideal S1x64 .f32) (x2 : Vec Ideal S64x32 .f32) (p : Fin 10000) (q : Fin 32) :
    k1_pay1 x0 x1 x2 (ix2 p q) = ∑ k : Fin 64, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs1_0 _ _
    | ⟨1, _⟩ => exact (lhs1_1 _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs1_0 _ _).trans hk
    | ⟨1, _⟩ => exact rhs1_1 _ _)
  rw [el, er, truncf_apply, truncf_apply, maximumf_apply, addf_apply, broadcast_apply, shapeCast_self, shapeCast_self, row_spread_apply]
  rfl

/-- The body's arithmetic at entry `(p, q)` of its block, when row `p` of the first block is row `r` of the first array and
    the other two blocks are their arrays: entry `(r, q)` of the rectified biased array times the weights. -/
theorem point1 (x0 : Vec Ideal S10000x64 .f32) (x1 : Vec Ideal S1x64 .f32) (x2 : Vec Ideal S64x32 .f32)
    (A : S50000x64.Idx → EReal) (B : S1x64.Idx → EReal) (W : S64x32.Idx → EReal) (p : Fin 10000) (q : Fin 32) (r : Fin 50000)
    (h0 : ∀ k : Fin 64, x0 (ix2 p k) = A (ix2 r k)) (h1 : ∀ k : Fin 64, x1 (ix2 (0 : Fin 1) k) = B (ix2 (0 : Fin 1) k))
    (h2 : ∀ k : Fin 64, x2 (ix2 k q) = W (ix2 k q)) :
    k1_pay1 x0 x1 x2 (ix2 p q) = Cert.Spec.brm A B W (ix2 r q) := by
  rw [pay1_apply, Cert.Spec.brm_apply]
  exact Finset.sum_congr rfl fun k _ => by rw [h0 k, h1 k, h2 k]

/-- The printed index maps over the grid: point `t` stages row block `t` of the first operand and of the result, and the
    whole bias row and weight matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the rectified biased array times the weights, of the three arrays as the
    region finds them. -/
theorem flushed1_eq (c : Dev nD) (t : Fin cfg1.N) :
    (dat1 (F := Ideal) V c).flushed 3 t = ((cfg1.win 3).blk t).view.read (Elt Ideal) (Cert.Spec.brm (V c main_v32) (V c main_v33) (V c main_arg3)) := by
  show (cfg1.win 3).cut (grid1.coords t) ((dat1 V c).after 3 t) = _
  rw [after1_3]
  unfold out1_3
  rw [View.canon_unit_zero zero_offsets1]
  simp only [View.ld_unit_zero (S := S10000x64) zero_offsets1, View.ld_unit_zero (S := S1x64) zero_offsets1, View.ld_unit_zero (S := S64x32) zero_offsets1]
  obtain ⟨e0, e1, e2, e3, e4, e5, e6, e7⟩ := idx_facts1 t
  have ht : t.val < 5 := t.isLt
  funext j
  obtain ⟨p, q, rfl⟩ : ∃ (p : Fin 10000) (q : Fin 32), j = ix2 p q := ⟨j 0, j 1, eq_ix2 j⟩
  have hr : t.val * 10000 + p.val < 50000 := by have := p.isLt; omega
  have hemb : ((cfg1.win 3).blk t).view.emb (ix2 p q) = ix2 (⟨t.val * 10000 + p.val, hr⟩ : Fin 50000) q := by
    funext a; apply Fin.ext
    match a with
    | ⟨0, _⟩ => show win1_3.index t (0 : Fin 2) * 10000 + 1 * p.val = t.val * 10000 + p.val; rw [e6]; omega
    | ⟨1, _⟩ => show win1_3.index t (1 : Fin 2) * 32 + 1 * q.val = q.val; rw [e7]; omega
  refine (point1 (iblk1 V c 0 t) (iblk1 V c 1 t) (iblk1 V c 2 t) (V c main_v32) (V c main_v33) (V c main_arg3) p q ⟨t.val * 10000 + p.val, hr⟩
    (fun k => ?_) (fun k => ?_) (fun k => ?_)).trans
    (congrArg (Cert.Spec.brm (V c main_v32) (V c main_v33) (V c main_arg3)) hemb.symm)
  · show V c main_v32 (((cfg1.win 0).blk t).view.emb (ix2 p k)) = V c main_v32 (ix2 (⟨t.val * 10000 + p.val, hr⟩ : Fin 50000) k)
    refine congrArg (V c main_v32) (funext fun a => Fin.ext ?_)
    match a with
    | ⟨0, _⟩ => show win1_0.index t (0 : Fin 2) * 10000 + 1 * p.val = t.val * 10000 + p.val; rw [e0]; omega
    | ⟨1, _⟩ => show win1_0.index t (1 : Fin 2) * 64 + 1 * k.val = k.val; rw [e1]; omega
  · show V c main_v33 (((cfg1.win 1).blk t).view.emb (ix2 (0 : Fin 1) k)) = V c main_v33 (ix2 (0 : Fin 1) k)
    refine congrArg (V c main_v33) (funext fun a => Fin.ext ?_)
    match a with
    | ⟨0, _⟩ => show win1_1.index t (0 : Fin 2) * 1 + 1 * (0 : Fin 1).val = (0 : Fin 1).val; rw [e2]; rfl
    | ⟨1, _⟩ => show win1_1.index t (1 : Fin 2) * 64 + 1 * k.val = k.val; rw [e3]; omega
  · show V c main_arg3 (((cfg1.win 2).blk t).view.emb (ix2 k q)) = V c main_arg3 (ix2 k q)
    refine congrArg (V c main_arg3) (funext fun a => Fin.ext ?_)
    match a with
    | ⟨0, _⟩ => show win1_2.index t (0 : Fin 2) * 64 + 1 * k.val = k.val; rw [e4]; omega
    | ⟨1, _⟩ => show win1_2.index t (1 : Fin 2) * 32 + 1 * q.val = q.val; rw [e5]; omega

/-- An index of the result array is in point `t`'s block iff each coordinate is in the block's range on its axis. -/
theorem mem_blk1 (t : Fin cfg1.N) (i : S50000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v34).slice (win1_3.rect t)).set ↔ _
  rw [View.set_slice_whole, Rect.mem_set_unit]
  exact Iff.rfl

/-- Every index of the result array is in some point's block: row `r` is in row block `r / 10000`. -/
theorem cover1 (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  obtain ⟨t, ht⟩ : ∃ t : Fin cfg1.N, t.val = (i 0).val / 10000 := ⟨⟨(i 0).val / 10000, by show _ < 5; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e6, ht]; omega
  | ⟨1, _⟩ => show win1_3.index t (1 : Fin 2) * 32 ≤ (i 1).val ∧ (i 1).val < win1_3.index t (1 : Fin 2) * 32 + 32; rw [e7]; omega

/-- THE RESULT ARRAY after the region's pipeline has run over its grid: the first array with the bias row added to
    every row, rectified, times the weight matrix, as the region finds the three. -/
theorem arr1 (c : Dev nD) :
    (dat1 (F := Ideal) V c).arrAt 3 cfg1.N = Cert.Spec.brm (V c main_v32) (V c main_v33) (V c main_arg3) :=
  (dat1 (F := Ideal) V c).arrAt_eq_of_cover 3 (Cert.Spec.brm (V c main_v32) (V c main_v33) (V c main_arg3)) (fun t _ => flushed1_eq V c t) cover1

end Cert.KernelIdeal.RegionValue

end
-- ==== Proof.Region2.lean ====
/-
  The third dense stage read off its pipeline: after the grid of eight points has run, the output array holds, at row
  `c` and column `r`, the input array's entry `(r, c)` plus the bias row's entry `c` — the biased array read transposed.
  Each grid point `t` takes rows `6400·t … 6400·t + 6399` of the input, adds the bias row to each of them, and writes the
  transposed block into columns `6400·t … 6400·t + 6399` of the output; the eight column blocks tile the output.
-/
import proofs.«129775_j3642132267298_2_alg».proof.Proof.Gen.KernelIdeal.Frame
import proofs.«129775_j3642132267298_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

/-- The zero offset of a whole-block access, as the constant function. -/
theorem zero_off2 : (![0, 0] : Fin 2 → Nat) = fun _ => 0 := funext fun a => by fin_cases a <;> rfl

/-- The body's arithmetic at row `p`, column `q` of its output block: the input block's entry `(q, p)` plus the bias
    row's entry `p`. -/
theorem bias_transpose_apply (x0 : Vec Ideal S6400x32 .f32) (x1 : Vec Ideal S1x32 .f32) (p : Fin 32) (q : Fin 6400) :
    k2_pay1 (F := Ideal) x0 x1 (ix2 p q) = x0 (ix2 q p) + x1 (ix2 (0 : Fin 1) p) := by
  unfold k2_pay1
  refine (transpose_apply [1, 0] _ transposes_S6400x32_p1_0_S32x6400 (ix2 p q) (ix2 q p)
    (fun b => match b with | ⟨0, _⟩ => rfl | ⟨1, _⟩ => rfl)).trans ?_
  refine (addf_apply _ _ _).trans ?_
  refine congrArg₂ (· + ·) ?_ ?_
  · exact congrFun (shapeCast_self x0 shapeCasts_S6400x32_S6400x32) _
  · refine (broadcastTo_apply _ broadcasts_S1x32_S6400x32 (ix2 q p) (ix2 (0 : Fin 1) p)
      (fun a => match a with | ⟨0, _⟩ => rfl | ⟨1, _⟩ => rfl)).trans ?_
    exact congrFun (shapeCast_self x1 shapeCasts_S1x32_S1x32) _

/-- The index maps over the grid of eight points: the input window walks the row blocks, the output window the column
    blocks, the bias row stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val :=
  (by decide +kernel : ∀ t : Fin grid2.N, _)

/-- One entry of the block written at the `n`-th grid point: when the input block holds rows `6400·n …` of `A` and the
    bias block is `B`, the body's result at `j` is the biased transpose of `A` at row `j 0`, column `6400·n + j 1`. -/
theorem block_entry (x0 : Vec Ideal S6400x32 .f32) (x1 : Vec Ideal S1x32 .f32)
    (A : S51200x32.Idx → EReal) (B : S1x32.Idx → EReal) (n : Nat) (j : S32x6400.Idx) (i : S32x51200.Idx)
    (h0 : ∀ (y : S6400x32.Idx) (k : S51200x32.Idx), (k 0).val = n * 6400 + (y 0).val → (k 1).val = (y 1).val → x0 y = A k)
    (h1 : ∀ y : S1x32.Idx, x1 y = B y)
    (hi0 : (i 0).val = (j 0).val) (hi1 : (i 1).val = n * 6400 + (j 1).val) :
    k2_pay1 (F := Ideal) x0 x1 j = Cert.Spec.bt A B i := by
  obtain ⟨p, q, rfl⟩ : ∃ (p : Fin 32) (q : Fin 6400), j = ix2 p q := ⟨j 0, j 1, eq_ix2 j⟩
  obtain ⟨p', q', rfl⟩ : ∃ (p' : Fin 32) (q' : Fin 51200), i = ix2 p' q' := ⟨i 0, i 1, eq_ix2 i⟩
  obtain rfl : p' = p := Fin.ext hi0
  rw [bias_transpose_apply, Cert.Spec.bt_apply, h0 (ix2 q p') (ix2 q' p') hi1 rfl, h1]

/-- What grid point `t` writes back is block `t` of the biased transpose of the arrays the region finds. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.Spec.bt (V c main_v49) (V c main_v50)) := by
  show (cfg2.win 2).cut (grid2.coords t) ((dat2 V c).after 2 t) = _
  rw [after2_2]
  unfold out2_2
  rw [View.canon_unit_zero zero_off2]
  simp only [View.ld_unit_zero (S := S6400x32) zero_off2, View.ld_unit_zero (S := S1x32) zero_off2]
  obtain ⟨e0, e1, e2, e3, e4, e5⟩ := index_maps t
  funext j
  show k2_pay1 (iblk2 V c 0 t) (iblk2 V c 1 t) j
    = Cert.Spec.bt (V c main_v49) (V c main_v50) (((cfg2.win 2).blk t).view.emb j)
  refine block_entry _ _ _ _ t.val j _ (fun y k hk0 hk1 => ?_) (fun y => ?_) ?_ ?_
  · show V c main_v49 (((cfg2.win 0).blk t).view.emb y) = V c main_v49 k
    refine congrArg _ (funext fun a => Fin.ext ?_)
    match a with
    | ⟨0, _⟩ => show win2_0.index t (0 : Fin 2) * 6400 + 1 * (y 0).val = (k 0).val; omega
    | ⟨1, _⟩ => show win2_0.index t (1 : Fin 2) * 32 + 1 * (y 1).val = (k 1).val; omega
  · show V c main_v50 (((cfg2.win 1).blk t).view.emb y) = V c main_v50 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 32 + 1 * (y 1).val = (y 1).val; omega
  · show win2_2.index t (0 : Fin 2) * 32 + 1 * (j 0).val = (j 0).val; omega
  · show win2_2.index t (1 : Fin 2) * 6400 + 1 * (j 1).val = t.val * 6400 + (j 1).val; omega

/-- An index of the output array is in point `t`'s block iff each coordinate is in the block's range on its axis. -/
theorem mem_blk (t : Fin cfg2.N) (i : S32x51200.Idx) :
    i ∈ ((cfg2.win 2).blk t).view.set ↔ ∀ a : Fin 2, win2_2.index t a * S32x6400.size a ≤ (i a).val
      ∧ (i a).val < win2_2.index t a * S32x6400.size a + S32x6400.size a := by
  show i ∈ ((View.whole main_v51).slice (win2_2.rect t)).set ↔ _
  rw [View.set_slice_whole, Rect.mem_set_unit]
  exact Iff.rfl

/-- The eight column blocks tile the output: column `n` is in the block of point `n / 6400`. -/
theorem cover (i : S32x51200.Idx) :
    ∃ t : Fin cfg2.N, (cfg2.win 2).flush t = true ∧ i ∈ ((cfg2.win 2).blk t).view.set := by
  have hi0 : (i 0).val < 32 := (i 0).isLt
  have hi1 : (i 1).val < 51200 := (i 1).isLt
  have hN : cfg2.N = 8 := N_2
  obtain ⟨t, ht⟩ : ∃ t : Fin cfg2.N, t.val = (i 1).val / 6400 := ⟨⟨(i 1).val / 6400, by rw [hN]; omega⟩, rfl⟩
  obtain ⟨e0, e1, e2, e3, e4, e5⟩ := index_maps t
  refine ⟨t, flush2_2 t, ?_⟩
  rw [mem_blk]
  intro a
  match a with
  | ⟨0, _⟩ =>
    show win2_2.index t (0 : Fin 2) * 32 ≤ (i 0).val ∧ (i 0).val < win2_2.index t (0 : Fin 2) * 32 + 32
    omega
  | ⟨1, _⟩ =>
    show win2_2.index t (1 : Fin 2) * 6400 ≤ (i 1).val ∧ (i 1).val < win2_2.index t (1 : Fin 2) * 6400 + 6400
    omega

/-- After the grid has run, the output array is the biased transpose of the two arrays the region finds. -/
theorem arr2 (V : (c : Dev nD) → (b : Ref sig .tc) → Buf (Elt Ideal) ((c : Thread nD τ).loc b)) (c : Dev nD) :
    (Gen.dat2 (F := Ideal) V c).arrAt 2 cfg2.N = Cert.Spec.bt (V c main_v49) (V c main_v50) :=
  (dat2 (F := Ideal) V c).arrAt_eq_of_cover 2 (Cert.Spec.bt (V c main_v49) (V c main_v50))
    (fun t _ => flushed_eq V c t) cover

end Cert.KernelIdeal.RegionValue

end
-- ==== Proof.KValue.lean ====
/-
  The fold through the idealized kernel program's segments leaves, at the result's buffer, the function `result` of
  the argument arrays. Read from the end: the result is the third
  region's output cut to the real columns; that output is the transposed biased array `bt` of the padded second
  aggregation and the second bias; the second aggregation is taken of the second region's output, `relu (a + b1) · W2`
  of the first aggregation; and the first aggregation is taken of the first region's output, the features times `W1`.
  Between the regions the scale column and the two edge lists stay in their buffers untouched.
-/
import proofs.«129775_j3642132267298_2_alg».proof.Proof.Gen.KernelIdeal.Frame
import proofs.«129775_j3642132267298_2_alg».proof.Proof.KStages
import proofs.«129775_j3642132267298_2_alg».proof.Proof.KResult
import proofs.«129775_j3642132267298_2_alg».proof.Proof.Region0
import proofs.«129775_j3642132267298_2_alg».proof.Proof.Region1
import proofs.«129775_j3642132267298_2_alg».proof.Proof.Region2

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The fold through @main's segments, read at the result's buffer, is `result` of the launch contents of the
    arguments. -/
theorem fold_eq (c : Dev nD) :
    W11 (F := Ideal) m ρ c (Proc.devRef .tc main_v53)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- at the first region's entry
  have a1 : W3 (F := Ideal) m ρ c (Proc.devRef .tc main_v1) = h0 (F := Ideal) (m ((c.tc : Thread nD τ).loc main_arg0)) := pre_v1 (W0 m ρ c)
  have a7 : W3 (F := Ideal) m ρ c (Proc.devRef .tc main_v7) = srcs (F := Ideal) (m ((c.tc : Thread nD τ).loc main_arg5)) := pre_v7 (W0 m ρ c)
  have a8 : W3 (F := Ideal) m ρ c (Proc.devRef .tc main_v8) = dsts (F := Ideal) (m ((c.tc : Thread nD τ).loc main_arg5)) := pre_v8 (W0 m ρ c)
  have a17 : W3 (F := Ideal) m ρ c (Proc.devRef .tc main_v17) = dcol (F := Ideal) (m ((c.tc : Thread nD τ).loc main_arg5)) := pre_v17 (W0 m ρ c)
  have aW1 : W3 (F := Ideal) m ρ c (Proc.devRef .tc main_arg1) = m ((c.tc : Thread nD τ).loc main_arg1) := pre_arg1 (W0 m ρ c)
  have ab1 : W3 (F := Ideal) m ρ c (Proc.devRef .tc main_arg2) = m ((c.tc : Thread nD τ).loc main_arg2) := pre_arg2 (W0 m ρ c)
  have aW2 : W3 (F := Ideal) m ρ c (Proc.devRef .tc main_arg3) = m ((c.tc : Thread nD τ).loc main_arg3) := pre_arg3 (W0 m ρ c)
  have ab2 : W3 (F := Ideal) m ρ c (Proc.devRef .tc main_arg4) = m ((c.tc : Thread nD τ).loc main_arg4) := pre_arg4 (W0 m ρ c)
  -- at the first region's exit
  have b18 : W4 (F := Ideal) m ρ c (Proc.devRef .tc main_v18)
      = Cert.Spec.mm (h0 (F := Ideal) (m ((c.tc : Thread nD τ).loc main_arg0))) (m ((c.tc : Thread nD τ).loc main_arg1)) := by
    refine (W4_arr m ρ c 2).trans ((Cert.KernelIdeal.RegionValue.arr0 (V3 m ρ) c).trans ?_)
    exact congrArg₂ Cert.Spec.mm a1 aW1
  have b7 : W4 (F := Ideal) m ρ c (Proc.devRef .tc main_v7) = srcs (F := Ideal) (m ((c.tc : Thread nD τ).loc main_arg5)) :=
    (W4_of_ne m ρ c main_v7 (by decide)).trans a7
  have b8 : W4 (F := Ideal) m ρ c (Proc.devRef .tc main_v8) = dsts (F := Ideal) (m ((c.tc : Thread nD τ).loc main_arg5)) :=
    (W4_of_ne m ρ c main_v8 (by decide)).trans a8
  have b17 : W4 (F := Ideal) m ρ c (Proc.devRef .tc main_v17) = dcol (F := Ideal) (m ((c.tc : Thread nD τ).loc main_arg5)) :=
    (W4_of_ne m ρ c main_v17 (by decide)).trans a17
  have bb1 : W4 (F := Ideal) m ρ c (Proc.devRef .tc main_arg2) = m ((c.tc : Thread nD τ).loc main_arg2) := (W4_of_ne m ρ c main_arg2 (by decide)).trans ab1
  have bW2 : W4 (F := Ideal) m ρ c (Proc.devRef .tc main_arg3) = m ((c.tc : Thread nD τ).loc main_arg3) := (W4_of_ne m ρ c main_arg3 (by decide)).trans aW2
  have bb2 : W4 (F := Ideal) m ρ c (Proc.devRef .tc main_arg4) = m ((c.tc : Thread nD τ).loc main_arg4) := (W4_of_ne m ρ c main_arg4 (by decide)).trans ab2
  -- at the second region's entry
  have c32 : W5 (F := Ideal) m ρ c (Proc.devRef .tc main_v32)
      = agg64 (F := Ideal) (Cert.Spec.mm (h0 (F := Ideal) (m ((c.tc : Thread nD τ).loc main_arg0))) (m ((c.tc : Thread nD τ).loc main_arg1)))
          (m ((c.tc : Thread nD τ).loc main_arg5)) :=
    (mid_v32 (W4 m ρ c) _ b17 b7 b8).trans (by rw [b18])
  have c33 : W5 (F := Ideal) m ρ c (Proc.devRef .tc main_v33) = shapeCast S1x64 (m ((c.tc : Thread nD τ).loc main_arg2)) Facts₀.shapeCasts_S64_S1x64 :=
    (mid_v33 (W4 m ρ c)).trans (by rw [bb1])
  have c7 : W5 (F := Ideal) m ρ c (Proc.devRef .tc main_v7) = srcs (F := Ideal) (m ((c.tc : Thread nD τ).loc main_arg5)) := (mid_v7 (W4 m ρ c)).trans b7
  have c8 : W5 (F := Ideal) m ρ c (Proc.devRef .tc main_v8) = dsts (F := Ideal) (m ((c.tc : Thread nD τ).loc main_arg5)) := (mid_v8 (W4 m ρ c)).trans b8
  have c17 : W5 (F := Ideal) m ρ c (Proc.devRef .tc main_v17) = dcol (F := Ideal) (m ((c.tc : Thread nD τ).loc main_arg5)) := (mid_v17 (W4 m ρ c)).trans b17
  have cW2 : W5 (F := Ideal) m ρ c (Proc.devRef .tc main_arg3) = m ((c.tc : Thread nD τ).loc main_arg3) := (mid_arg3 (W4 m ρ c)).trans bW2
  have cb2 : W5 (F := Ideal) m ρ c (Proc.devRef .tc main_arg4) = m ((c.tc : Thread nD τ).loc main_arg4) := (mid_arg4 (W4 m ρ c)).trans bb2
  -- at the second region's exit
  have d34 : W6 (F := Ideal) m ρ c (Proc.devRef .tc main_v34)
      = Cert.Spec.brm (agg64 (F := Ideal) (Cert.Spec.mm (h0 (F := Ideal) (m ((c.tc : Thread nD τ).loc main_arg0))) (m ((c.tc : Thread nD τ).loc main_arg1)))
          (m ((c.tc : Thread nD τ).loc main_arg5)))
          (shapeCast S1x64 (m ((c.tc : Thread nD τ).loc main_arg2)) Facts₀.shapeCasts_S64_S1x64) (m ((c.tc : Thread nD τ).loc main_arg3)) := by
    refine (W6_arr m ρ c 3).trans ((Cert.KernelIdeal.RegionValue.arr1 (V5 m ρ) c).trans ?_)
    show Cert.Spec.brm (W5 (F := Ideal) m ρ c (Proc.devRef .tc main_v32)) (W5 (F := Ideal) m ρ c (Proc.devRef .tc main_v33)) (W5 (F := Ideal) m ρ c (Proc.devRef .tc main_arg3)) = _
    rw [c32, c33, cW2]
  have d7 : W6 (F := Ideal) m ρ c (Proc.devRef .tc main_v7) = srcs (F := Ideal) (m ((c.tc : Thread nD τ).loc main_arg5)) :=
    (W6_of_ne m ρ c main_v7 (by decide)).trans c7
  have d8 : W6 (F := Ideal) m ρ c (Proc.devRef .tc main_v8) = dsts (F := Ideal) (m ((c.tc : Thread nD τ).loc main_arg5)) :=
    (W6_of_ne m ρ c main_v8 (by decide)).trans c8
  have d17 : W6 (F := Ideal) m ρ c (Proc.devRef .tc main_v17) = dcol (F := Ideal) (m ((c.tc : Thread nD τ).loc main_arg5)) :=
    (W6_of_ne m ρ c main_v17 (by decide)).trans c17
  have db2 : W6 (F := Ideal) m ρ c (Proc.devRef .tc main_arg4) = m ((c.tc : Thread nD τ).loc main_arg4) := (W6_of_ne m ρ c main_arg4 (by decide)).trans cb2
  -- at the third region's entry
  have e49 := (post_v49 (W6 m ρ c) _ d17 d7 d8).trans (by rw [d34])
  have e50 := (post_v50 (W6 m ρ c)).trans (by rw [db2])
  -- at the third region's exit, and the tail
  refine (last_v53 (W10 m ρ c)).trans ?_
  unfold result
  refine congrArg (tail (F := Ideal)) ?_
  refine (W10_arr m ρ c 2).trans ((Cert.KernelIdeal.RegionValue.arr2 (V9 m ρ) c).trans ?_)
  exact congrArg₂ Cert.Spec.bt e49 e50

end Cert.KernelIdeal.RunValue

end
-- ==== Proof.RDefs.lean ====
/-
  The reference program's result as a structured function of the argument arrays. The node features, the edge lists,
  the degrees and their inverse square roots are the same operations as in the kernel program and are named by the
  same functions. What differs is where the symmetric normalisation is applied: the reference weighs every EDGE by the
  product of the scales of its source and of its target (`norm`) and sums the weighted messages into the targets
  (`aggR64`, `aggR32`), where the kernel scales the node rows before and after the sum.
-/
import proofs.«129775_j3642132267298_2_alg».proof.Proof.RefRun
import proofs.«129775_j3642132267298_2_alg».proof.Proof.KDefs

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.SL.Sem

variable {F : FTy → Type} [FloatOps F]

/-- The targets as gather start indices [edges, 1]: a negative index is wrapped by the node count first. -/
def widx (ei : (⟨S2x800000, .i32⟩ : BufTy).Contents (Elt F)) : (⟨S850000x1, .i32⟩ : BufTy).Contents (Elt F) :=
  broadcastInDim S850000x1 ![0] bcast_S850000_S850000x1_0
    (select (cmpi .slt (Cert.KernelIdeal.RunValue.dsts (F := F) ei) (broadcastInDim S850000 ![] bcast_S_S850000 (constantI S_ 32 0#32)))
      (addi (Cert.KernelIdeal.RunValue.dsts (F := F) ei) (broadcastInDim S850000 ![] bcast_S_S850000 (constantI S_ 32 50000#32))) (Cert.KernelIdeal.RunValue.dsts (F := F) ei))

/-- Every edge's weight: the scale of its source times the scale of its target. -/
def norm (ei : (⟨S2x800000, .i32⟩ : BufTy).Contents (Elt F)) : (⟨S850000, .f32⟩ : BufTy).Contents (Elt F) :=
  mulf (Host.gather gather_S50000_S850000x1_S850000_n_0_n_n_0_1_1 (Cert.KernelIdeal.RunValue.dinv (F := F) ei) (Cert.KernelIdeal.RunValue.sidx (F := F) ei))
    (Host.gather gather_S50000_S850000x1_S850000_n_0_n_n_0_1_1 (Cert.KernelIdeal.RunValue.dinv (F := F) ei) (widx (F := F) ei))

/-- One layer's aggregation at 64 features: gather the rows at the sources, weigh each by its edge, sum them into the
    targets. -/
def aggR64 (H : (⟨S50000x64, .f32⟩ : BufTy).Contents (Elt F)) (ei : (⟨S2x800000, .i32⟩ : BufTy).Contents (Elt F)) :
    (⟨S50000x64, .f32⟩ : BufTy).Contents (Elt F) :=
  Host.scatterAdd scatter_S50000x64_S850000x1_S850000x64_1_0_0_1 (broadcastInDim S50000x64 ![] bcast_S_S50000x64 (constant S_ .f32 0x00000000#32))
    (Cert.KernelIdeal.RunValue.didx (F := F) ei)
    (mulf (Host.gather gather_S50000x64_S850000x1_S850000x64_1_0_n_n_0_1_164 H (Cert.KernelIdeal.RunValue.sidx (F := F) ei))
      (broadcastInDim S850000x64 ![0, 1] bcast_S850000x1_S850000x64_0_1 (broadcastInDim S850000x1 ![0] bcast_S850000_S850000x1_0 (norm (F := F) ei))))

/-- The same at 32 features. -/
def aggR32 (H : (⟨S50000x32, .f32⟩ : BufTy).Contents (Elt F)) (ei : (⟨S2x800000, .i32⟩ : BufTy).Contents (Elt F)) :
    (⟨S50000x32, .f32⟩ : BufTy).Contents (Elt F) :=
  Host.scatterAdd scatter_S50000x32_S850000x1_S850000x32_1_0_0_1 (broadcastInDim S50000x32 ![] bcast_S_S50000x32 (constant S_ .f32 0x00000000#32))
    (Cert.KernelIdeal.RunValue.didx (F := F) ei)
    (mulf (Host.gather gather_S50000x32_S850000x1_S850000x32_1_0_n_n_0_1_132 H (Cert.KernelIdeal.RunValue.sidx (F := F) ei))
      (broadcastInDim S850000x32 ![0, 1] bcast_S850000x1_S850000x32_0_1 (broadcastInDim S850000x1 ![0] bcast_S850000_S850000x1_0 (norm (F := F) ei))))

/-- The first layer: the features times the first weight matrix, aggregated, plus the first bias on every row. -/
def layer1 (x : (⟨S1x64x50000, .f32⟩ : BufTy).Contents (Elt F)) (W1 : (⟨S64x64, .f32⟩ : BufTy).Contents (Elt F))
    (b1 : (⟨S64, .f32⟩ : BufTy).Contents (Elt F)) (ei : (⟨S2x800000, .i32⟩ : BufTy).Contents (Elt F)) :
    (⟨S50000x64, .f32⟩ : BufTy).Contents (Elt F) :=
  addf (aggR64 (F := F) (Host.dotGeneral dot_S50000x64_S64x64_S50000x64_1_0_0_1_n_n none (Cert.KernelIdeal.RunValue.h0 (F := F) x) W1) ei)
    (broadcastInDim S50000x64 ![0, 1] bcast_S1x64_S50000x64_0_1 (broadcastInDim S1x64 ![1] bcast_S64_S1x64_1 b1))

/-- The whole reference: the first layer rectified, times the second weight matrix, aggregated, plus the second bias,
    laid out [1, 32, nodes]. -/
def result (x : (⟨S1x64x50000, .f32⟩ : BufTy).Contents (Elt F)) (W1 : (⟨S64x64, .f32⟩ : BufTy).Contents (Elt F))
    (b1 : (⟨S64, .f32⟩ : BufTy).Contents (Elt F)) (W2 : (⟨S64x32, .f32⟩ : BufTy).Contents (Elt F))
    (b2 : (⟨S32, .f32⟩ : BufTy).Contents (Elt F)) (ei : (⟨S2x800000, .i32⟩ : BufTy).Contents (Elt F)) :
    (⟨S1x32x50000, .f32⟩ : BufTy).Contents (Elt F) :=
  transpose S1x32x50000 [0, 2, 1] (shapeCast _ (addf
      (aggR32 (F := F) (Host.dotGeneral dot_S50000x64_S64x32_S50000x32_1_0_0_1_n_n none
        (maximumf (layer1 (F := F) x W1 b1 ei) (broadcastInDim S50000x64 ![] bcast_S_S50000x64 (constant S_ .f32 0x00000000#32))) W2) ei)
      (broadcastInDim S50000x32 ![0, 1] bcast_S1x32_S50000x32_0_1 (broadcastInDim S1x32 ![1] bcast_S32_S1x32_1 b2)))
    shapeCasts_S50000x32_S1x50000x32) transposes_S1x50000x32_S1x32x50000_0_2_1

/-- The run's composed term is this function of the argument arrays: the same operations, the shared ones under
    their names. -/
theorem res_eq (m : (ℓ : Loc nD τ sig) → Buf (Elt F) ℓ) (c : Dev nD) :
    Cert.ReferenceIdeal.ValueP.res_main_v94 (F := F) m c
      = result (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v94
  rfl

end Cert.ReferenceIdeal.RefValue

end
-- ==== Proof.RefDense.lean ====
/-
  The reference's dense stages as the whole-array functions of the specification: its first matrix product is `mm`, its
  second — of the rectified, biased aggregate with the second weight matrix — is `brm`, and its last stage (bias added,
  a unit axis put in front, the two trailing axes exchanged) reads at `(0, y, n)` the entry `(n, y)` plus the bias at `y`.
-/
import proofs.«129775_j3642132267298_2_alg».proof.Proof.Gen.ReferenceIdeal
import proofs.«129775_j3642132267298_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Facts₀ Cert.ReferenceIdeal.Facts Idealize.ShloMosaic Idealize.ShloMosaic.ValueIdx

/-- The left operand's index of the product at output index `j` and contraction index `q`: its row is the output's row … -/
theorem lhs64_0 (j : S50000x64.Idx) (q : dot_S50000x64_S64x64_S50000x64_1_0_0_1_n_n.contr.Idx) :
    (dot_S50000x64_S64x64_S50000x64_1_0_0_1_n_n.lhsIdx j q 0).val = (j 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
/-- … and its column the contraction index. -/
theorem lhs64_1 (j : S50000x64.Idx) (q : dot_S50000x64_S64x64_S50000x64_1_0_0_1_n_n.contr.Idx) :
    (dot_S50000x64_S64x64_S50000x64_1_0_0_1_n_n.lhsIdx j q 1).val = (q ⟨0, by decide⟩).val :=
  dot_S50000x64_S64x64_S50000x64_1_0_0_1_n_n.lhsIdx_val_of_single rfl j q
/-- The right operand's index: its row is the contraction index … -/
theorem rhs64_0 (j : S50000x64.Idx) (q : dot_S50000x64_S64x64_S50000x64_1_0_0_1_n_n.contr.Idx) :
    (dot_S50000x64_S64x64_S50000x64_1_0_0_1_n_n.rhsIdx j q 0).val = (q ⟨0, by decide⟩).val :=
  dot_S50000x64_S64x64_S50000x64_1_0_0_1_n_n.rhsIdx_val_of_single rfl j q
/-- … and its column the output's column. -/
theorem rhs64_1 (j : S50000x64.Idx) (q : dot_S50000x64_S64x64_S50000x64_1_0_0_1_n_n.contr.Idx) :
    (dot_S50000x64_S64x64_S50000x64_1_0_0_1_n_n.rhsIdx j q 1).val = (j 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The product at row `r`, column `c`: the sum over `k` of the left operand at `(r, k)` times the right at `(k, c)`. -/
theorem dot64_apply (x : FVec Ideal S50000x64 .f32) (w : FVec Ideal S64x64 .f32) (r : Fin 50000) (c : Fin 64) :
    Host.dotGeneral (F := Ideal) dot_S50000x64_S64x64_S50000x64_1_0_0_1_n_n none x w (ix2 r c) = ∑ k : Fin 64, x (ix2 r k) * w (ix2 k c) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 r c) ((ValueIdx.contrEquiv1 dot_S50000x64_S64x64_S50000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S50000x64_S64x64_S50000x64_1_0_0_1_n_n.rhsIdx (ix2 r c) ((ValueIdx.contrEquiv1 dot_S50000x64_S64x64_S50000x64_1_0_0_1_n_n 64 rfl rfl).symm k) = ix2 k c := funext fun a => Fin.ext (by
    match a with
    | ⟨0, _⟩ => exact (rhs64_0 _ _).trans hk
    | ⟨1, _⟩ => exact rhs64_1 _ _)
  rw [el, er]

/-- The first matrix product is the specification's `mm`. -/
theorem dot64_eq (x : FVec Ideal S50000x64 .f32) (w : FVec Ideal S64x64 .f32) :
    Host.dotGeneral (F := Ideal) dot_S50000x64_S64x64_S50000x64_1_0_0_1_n_n none x w = Cert.Spec.mm x w := by
  funext i
  obtain ⟨r, c, rfl⟩ : ∃ (r : Fin 50000) (c : Fin 64), i = ix2 r c := ⟨i 0, i 1, eq_ix2 i⟩
  rw [dot64_apply, Cert.Spec.mm_apply]

/-- The left operand's index of the product at output index `j` and contraction index `q`: its row is the output's row … -/
theorem lhs32_0 (j : S50000x32.Idx) (q : dot_S50000x64_S64x32_S50000x32_1_0_0_1_n_n.contr.Idx) :
    (dot_S50000x64_S64x32_S50000x32_1_0_0_1_n_n.lhsIdx j q 0).val = (j 0).val := by
  unfold DotDims.lhsIdx
  rw [dif_neg (show ¬(0 : Fin S50000x64.rank) ∈ dot_S50000x64_S64x32_S50000x32_1_0_0_1_n_n.lhsBatch by decide), dif_pos (show (0 : Fin S50000x64.rank) ∈ dot_S50000x64_S64x32_S50000x32_1_0_0_1_n_n.lhsNonContracting by decide)]
  rfl
/-- … and its column the contraction index. -/
theorem lhs32_1 (j : S50000x32.Idx) (q : dot_S50000x64_S64x32_S50000x32_1_0_0_1_n_n.contr.Idx) :
    (dot_S50000x64_S64x32_S50000x32_1_0_0_1_n_n.lhsIdx j q 1).val = (q ⟨0, by decide⟩).val :=
  dot_S50000x64_S64x32_S50000x32_1_0_0_1_n_n.lhsIdx_val_of_single rfl j q
/-- The right operand's index: its row is the contraction index … -/
theorem rhs32_0 (j : S50000x32.Idx) (q : dot_S50000x64_S64x32_S50000x32_1_0_0_1_n_n.contr.Idx) :
    (dot_S50000x64_S64x32_S50000x32_1_0_0_1_n_n.rhsIdx j q 0).val = (q ⟨0, by decide⟩).val :=
  dot_S50000x64_S64x32_S50000x32_1_0_0_1_n_n.rhsIdx_val_of_single rfl j q
/-- … and its column the output's column. -/
theorem rhs32_1 (j : S50000x32.Idx) (q : dot_S50000x64_S64x32_S50000x32_1_0_0_1_n_n.contr.Idx) :
    (dot_S50000x64_S64x32_S50000x32_1_0_0_1_n_n.rhsIdx j q 1).val = (j 1).val := by
  unfold DotDims.rhsIdx
  rw [dif_neg (show ¬(1 : Fin S64x32.rank) ∈ dot_S50000x64_S64x32_S50000x32_1_0_0_1_n_n.rhsBatch by decide), dif_pos (show (1 : Fin S64x32.rank) ∈ dot_S50000x64_S64x32_S50000x32_1_0_0_1_n_n.rhsNonContracting by decide)]
  rfl

/-- The product at row `r`, column `c`: the sum over `k` of the left operand at `(r, k)` times the right at `(k, c)`. -/
theorem dot32_apply (x : FVec Ideal S50000x64 .f32) (w : FVec Ideal S64x32 .f32) (r : Fin 50000) (c : Fin 32) :
    Host.dotGeneral (F := Ideal) dot_S50000x64_S64x32_S50000x32_1_0_0_1_n_n none x w (ix2 r c) = ∑ k : Fin 64, x (ix2 r k) * w (ix2 k c) := by
  simp only [Host.dotGeneral]
  rw [Ideal.dotGeneral_apply, ← Equiv.sum_comp (ValueIdx.contrEquiv1 dot_S50000x64_S64x32_S50000x32_1_0_0_1_n_n 64 rfl rfl).symm]
  refine Finset.sum_congr rfl fun k _ => ?_
  have hk := ValueIdx.contrEquiv1_symm_val dot_S50000x64_S64x32_S50000x32_1_0_0_1_n_n 64 rfl rfl k
  have el : dot_S50000x64_S64x32_S50000x32_1_0_0_1_n_n.lhsIdx (ix2 r c) ((ValueIdx.contrEquiv1 dot_S50000x64_S64x32_S50000x32_1_0_0_1_n_n 64 rfl rfl).symm k) = ix2 r k := funext fun a => Fin.ext (by
    match a with
    | ⟨0, _⟩ => exact lhs32_0 _ _
    | ⟨1, _⟩ => exact (lhs32_1 _ _).trans hk)
  have er : dot_S50000x64_S64x32_S50000x32_1_0_0_1_n_n.rhsIdx (ix2 r c) ((ValueIdx.contrEquiv1 dot_S50000x64_S64x32_S50000x32_1_0_0_1_n_n 64 rfl rfl).symm k) = ix2 k c := funext fun a => Fin.ext (by
    match a with
    | ⟨0, _⟩ => exact (rhs32_0 _ _).trans hk
    | ⟨1, _⟩ => exact rhs32_1 _ _)
  rw [el, er]

/-- The bias vector made a row and repeated down the rows reads, at `(r, k)`, the vector at `k`. -/
theorem bias_rows_apply (b : FVec Ideal S64 .f32) (r : Fin 50000) (k : Fin 64) :
    broadcastInDim S50000x64 ![0, 1] bcast_S1x64_S50000x64_0_1 (broadcastInDim S1x64 ![1] bcast_S64_S1x64_1 b) (ix2 r k) = b (ix1 k) := by
  refine (broadcastInDim_apply _ bcast_S1x64_S50000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  exact broadcastInDim_apply _ bcast_S64_S1x64_1 b (ix2 (0 : Fin 1) k) (ix1 k) (fun a => match a with
    | ⟨0, _⟩ => by show k.val = if (64 : Nat) = 1 then 0 else k.val; rw [if_neg (by decide)])

/-- The rectifier's zero repeated over the array reads the zero word everywhere. -/
theorem zeros_apply (r : Fin 50000) (k : Fin 64) :
    broadcastInDim S50000x64 ![] bcast_S_S50000x64 (constant (F := Ideal) S_ .f32 0x00000000#32) (ix2 r k)
      = Ideal.ofBits .f32 0x00000000#32 :=
  (broadcastInDim_apply _ bcast_S_S50000x64 _ (ix2 r k) ix0 (fun a => a.elim0)).trans (constant_apply _ _)

/-- The second matrix product, of the rectified biased array, is the specification's `brm` at the bias row `brow`. -/
theorem dot32_relu_eq (a : FVec Ideal S50000x64 .f32) (b : FVec Ideal S64 .f32) (brow : FVec Ideal S1x64 .f32)
    (hb : ∀ k : Fin 64, brow (ix2 (0 : Fin 1) k) = b (ix1 k)) (w : FVec Ideal S64x32 .f32) :
    Host.dotGeneral (F := Ideal) dot_S50000x64_S64x32_S50000x32_1_0_0_1_n_n none
      (maximumf (addf a (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))) w
      = Cert.Spec.brm a brow w := by
  funext i
  obtain ⟨r, c, rfl⟩ : ∃ (r : Fin 50000) (c : Fin 32), i = ix2 r c := ⟨i 0, i 1, eq_ix2 i⟩
  rw [dot32_apply, Cert.Spec.brm_apply]
  refine Finset.sum_congr rfl fun k _ => ?_
  rw [maximumf_apply, addf_apply, bias_rows_apply, zeros_apply, hb]

/-- The reference's last stage at `(0, y, n)`: the entry `(n, y)` plus the bias at `y`. -/
theorem ref_out_apply (a2 : FVec Ideal S50000x32 .f32) (b : FVec Ideal S32 .f32) (y : Fin 32) (n : Fin 50000) :
    transpose S1x32x50000 [0, 2, 1] (shapeCast S1x50000x32 (addf a2 (broadcastInDim S50000x32 ![0, 1] bcast_S1x32_S50000x32_0_1 (broadcastInDim S1x32 ![1] bcast_S32_S1x32_1 b))) shapeCasts_S50000x32_S1x50000x32) transposes_S1x50000x32_S1x32x50000_0_2_1 (ix3 (0 : Fin 1) y n)
      = a2 (ix2 n y) + b (ix1 y) := by
  refine (transpose_ix3_021_apply _ transposes_S1x50000x32_S1x32x50000_0_2_1 (0 : Fin 1) y n).trans ?_
  refine (shapeCast_ab_1ab_apply _ shapeCasts_S50000x32_S1x50000x32 (0 : Fin 1) n y).trans ?_
  rw [addf_apply]
  refine congrArg (a2 (ix2 n y) + ·) ?_
  refine (broadcastInDim_apply _ bcast_S1x32_S50000x32_0_1 _ (ix2 n y) (ix2 (0 : Fin 1) y) (fun a => match a with
    | ⟨0, _⟩ => by show 0 = if (1 : Nat) = 1 then 0 else n.val; rw [if_pos rfl]
    | ⟨1, _⟩ => by show y.val = if (32 : Nat) = 1 then 0 else y.val; rw [if_neg (by decide)])).trans ?_
  exact broadcastInDim_apply _ bcast_S32_S1x32_1 b (ix2 (0 : Fin 1) y) (ix1 y) (fun a => match a with
    | ⟨0, _⟩ => by show y.val = if (32 : Nat) = 1 then 0 else y.val; rw [if_neg (by decide)])

end Cert.ReferenceIdeal.RefValue

end
-- ==== Proof.KTail.lean ====
/-
  The two host layout stages around the last region, read at an index: the aggregated [nodes, 32] array padded with
  zero rows reads, at a row below the node count, the array itself; and the region's [32, 51200] output cut to its first
  50000 columns and given a leading unit axis reads, at `(0, y, n)`, the output at `(y, n)`.
-/
import proofs.«129775_j3642132267298_2_alg».proof.Proof.KDefs
import Idealize.ShloMosaic.Lib.ValueIdx
import Idealize.ShloMosaic.Lib.Pipeline.Value
import Idealize.ShloMosaic.Lib.ValueLayout
import Idealize.ShloMosaic.Lib.KernelVsHost

noncomputable section

namespace Cert.KernelIdeal.RunValue

open Cert.KernelIdeal Cert.KernelIdeal.Facts₀ Cert.KernelIdeal.Facts Idealize.ShloMosaic Idealize.ShloMosaic.ValueIdx

/-- The padded array at a row `n` below the node count is the array at that row. -/
theorem padded_apply (a : FVec Ideal S50000x32 .f32) (n : Fin 50000) (y : Fin 32) :
    padded (F := Ideal) a (ix2 (⟨n.val, by omega⟩ : Fin 51200) y) = a (ix2 n y) := by
  unfold padded
  exact pad_apply_of_inside _ _ _ a _ pads_S50000x32_S51200x32_012000_000 h_S_ _ (ix2 n y) (fun ax => match ax with
    | ⟨0, _⟩ => by show n.val = 0 + n.val * (0 + 1); omega
    | ⟨1, _⟩ => by show y.val = 0 + y.val * (0 + 1); omega)

/-- The cut and re-shaped output at `(0, y, n)` is the region's output at row `y`, column `n`. -/
theorem tail_apply (o : FVec Ideal S32x51200 .f32) (y : Fin 32) (n : Fin 50000) :
    tail (F := Ideal) o (ix3 (0 : Fin 1) y n) = o (ix2 y (⟨n.val, by omega⟩ : Fin 51200)) := by
  unfold tail
  refine (shapeCast_ab_1ab_apply _ shapeCasts_S32x50000_S1x32x50000 (0 : Fin 1) y n).trans ?_
  exact slice2_axis1_apply 0 o slices_S32x51200_S32x50000_0_0 y n ⟨n.val, by omega⟩ (by show n.val = 0 + n.val; omega)

end Cert.KernelIdeal.RunValue

end
-- ==== Proof.Agg.lean ====
/-
  A graph convolution's aggregation step, on the extended reals.

  Node features `H : [N, C]`, a per-node scale `D : [N]` with `0 ≤ D n < ⊤`, and `E` edges given by integer source and
  target index arrays. One formulation scales the NODES before and after the scatter-add,
      out[n] = (∑_{e lands at n} H[src e] * D[src e]) * D[n],
  the other scales each EDGE message,
      out[n] = ∑_{e lands at n} H[src e] * (D[src e] * D[tgt e]).
  They agree: multiplication by a non-negative finite extended real distributes over any finite sum (no finiteness of
  `H` is needed), an update that lands at row `n` has target index exactly `n` (the scatter reads its index signed and
  does not clamp; an update outside the operand is dropped), so the gathered `D` at the clamped target is `D n`, and
  multiplication is associative.

  The file first reads the two gathers and the scatter's landing condition at an index, for the literal dimension
  numbers of a row gather `x[idx, :]`, a flat gather `x[idx]` and a row scatter `x.at[idx, :].add(u)`.
-/
import Idealize.ShloMosaic.Lib.ValueIdx
import Idealize.ShloMosaic.PureOps.Ideal.Laws

noncomputable section

open scoped BigOperators

namespace Cert.Agg

open Idealize.ShloMosaic Idealize.ShloMosaic.ValueIdx

/-- The dimension numbers of a row gather `x[idx, :]`: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a flat gather `x[idx]`: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a row scatter `x.at[idx, :]`: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row gather read at `(e, f)`: the operand at row `idx[e, 0]`, read signed and clamped into `[0, N − 1]`, column `f`. -/
theorem gather_row_apply {N E C w : Nat} (hN : 0 < N)
    (wf : GatherDims.WF ⟨2, ![N, C]⟩ ⟨2, ![E, 1]⟩ ⟨2, ![E, C]⟩ [1] [0] [] [0] [] 1 ![1, C]) {α : Type}
    (x : (⟨2, ![N, C]⟩ : Shape).Idx → α) (idx : IVec ⟨2, ![E, 1]⟩ w) (e : Fin E) (f : Fin C) :
    Host.gather (rowGather N E C wf) x idx (ix2 e f)
      = x (ix2 ⟨min (idx (ix2 e (0 : Fin 1))).toInt.toNat (N - 1), by omega⟩ f) := by
  unfold Host.gather
  congr 1
  funext a
  refine Fin.ext ?_
  have hsi : (rowGather N E C wf).siIdx (ix2 e f) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGather N E C wf).start (ix2 e f) idx 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    rw [hsi]
    rfl
  | ⟨1, _⟩ =>
    show (rowGather N E C wf).start (ix2 e f) idx 1 + (rowGather N E C wf).batchCoord (ix2 e f) 1
      + (rowGather N E C wf).offCoord (ix2 e f) 1 = _
    rw [GatherDims.batchCoord_eq_zero _ _ _ List.not_mem_nil]
    have hs : (rowGather N E C wf).start (ix2 e f) idx 1 = 0 := by
      unfold GatherDims.start
      rw [dif_neg (show ¬ (1 : Fin 2) ∈ ([0] : List (Fin 2)) by decide)]
    rw [hs]
    have hk : (1 : Fin 2) ∈ (rowGather N E C wf).sKept :=
      (GatherDims.mem_sKept _ _).2 ⟨show ¬ (1 : Fin 2) ∈ ([0] : List (Fin 2)) by decide, List.not_mem_nil⟩
    unfold GatherDims.offCoord
    rw [dif_pos hk]
    simp only [Nat.zero_add]
    rfl

/-- The flat gather read at `e`: the operand at `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- An update `(e, f)` of the row scatter that lands at `(n, g)` has scatter index exactly `n` (read signed, not clamped)
    and keeps its column. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C)
    (h : (rowScatter N E C wf).resultIdx? (ix2 e f) idx = some (ix2 n g)) :
    (idx (ix2 e (0 : Fin 1))).toInt = (n.val : Int) ∧ f = g := by
  have hsi : (rowScatter N E C wf).siIdx (ix2 e f)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e f) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e f) idx 1 = 0 := by
    unfold ScatterDims.start
    rw [dif_neg (show ¬ (1 : Fin 2) ∈ ([0] : List (Fin 2)) by decide)]
  have hw0 : (rowScatter N E C wf).window (ix2 e f) 0 = 0 := by
    unfold ScatterDims.window
    rw [dif_neg (fun hk => (mem_kept _ _).1 hk (List.mem_singleton.mpr rfl))]
  have hw1 : (rowScatter N E C wf).window (ix2 e f) 1 = f.val := by
    unfold ScatterDims.window
    rw [dif_pos ((mem_kept _ _).2 (show ¬ (1 : Fin 2) ∈ ([0] : List (Fin 2)) by decide))]
    rfl
  unfold ScatterDims.resultIdx? at h
  split at h
  · rename_i hin
    have h' := Option.some.inj h
    have e0 := congrArg Fin.val (congrFun h' 0)
    have e1 := congrArg Fin.val (congrFun h' 1)
    have b0 := hin 0
    simp only [hs0, hw0] at e0 b0
    simp only [hs1, hw1] at e1
    refine ⟨?_, Fin.ext ?_⟩
    · have : ((ix2 n g : (⟨2, ![N, C]⟩ : Shape).Idx) 0).val = n.val := rfl
      rw [this] at e0
      omega
    · have : ((ix2 n g : (⟨2, ![N, C]⟩ : Shape).Idx) 1).val = g.val := rfl
      rw [this] at e1
      omega
  · exact absurd h (by simp)

/-- A finite sum times a non-negative finite constant is the sum of the products: on the extended reals
    multiplication by such a constant distributes over addition, whatever the summands. -/
theorem sum_mul_of_nonneg_of_ne_top {ι : Type} (s : Finset ι) (u : ι → EReal) {c : EReal} (h0 : 0 ≤ c) (ht : c ≠ ⊤) :
    (∑ j ∈ s, u j) * c = ∑ j ∈ s, u j * c := by
  classical
  induction s using Finset.induction_on with
  | empty => simp
  | insert a s ha ih =>
    rw [Finset.sum_insert ha, Finset.sum_insert ha, EReal.right_distrib_of_nonneg_of_ne_top h0 ht, ih]

/-- Scaling the nodes before and after the scatter-add is scaling each edge message by the product of its two end
    nodes' scales. `Dc` is `D` broadcast along the columns, `z` the zero operand, `dW` the target indices after a
    wrap of the negative ones (equal to `dI` wherever `dI` is non-negative, the only place an update can land), `Nc`
    the per-edge product of the two gathered scales broadcast along the columns. -/
theorem agg_eq {N E C w : Nat} (hN : 0 < N)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (wfS : ScatterDims.WF ⟨2, ![N, C]⟩ ⟨2, ![E, 1]⟩ ⟨2, ![E, C]⟩ [1] [0] [0] 1)
    (H : FVec Ideal ⟨2, ![N, C]⟩ .f32) (D : FVec Ideal ⟨1, ![N]⟩ .f32) (hD0 : ∀ n, 0 ≤ D n) (hDt : ∀ n, D n ≠ ⊤)
    (Dc : FVec Ideal ⟨2, ![N, C]⟩ .f32) (hDc : ∀ (n : Fin N) (f : Fin C), Dc (ix2 n f) = D (ix1 n))
    (z : FVec Ideal ⟨2, ![N, C]⟩ .f32) (hz : ∀ i, z i = 0)
    (sI dI dW : IVec ⟨2, ![E, 1]⟩ w)
    (hW : ∀ e : Fin E, 0 ≤ (dI (ix2 e (0 : Fin 1))).toInt → dW (ix2 e (0 : Fin 1)) = dI (ix2 e (0 : Fin 1)))
    (Nc : FVec Ideal ⟨2, ![E, C]⟩ .f32)
    (hNc : ∀ (e : Fin E) (f : Fin C), Nc (ix2 e f)
      = Host.gather (vecGather N E wfV) D sI (ix1 e) * Host.gather (vecGather N E wfV) D dW (ix1 e)) :
    mulf (Host.scatterAdd (F := Ideal) (rowScatter N E C wfS) z dI
        (Host.gather (rowGather N E C wfG) (mulf H Dc) sI)) Dc
      = Host.scatterAdd (F := Ideal) (rowScatter N E C wfS) z dI
        (mulf (Host.gather (rowGather N E C wfG) H sI) Nc) := by
  funext i
  obtain ⟨n, g, rfl⟩ : ∃ (n : Fin N) (g : Fin C), i = ix2 n g := ⟨i 0, i 1, eq_ix2 i⟩
  show Ideal.hostScatterAdd (rowScatter N E C wfS) z dI
        (Host.gather (rowGather N E C wfG) (mulf H Dc) sI) (ix2 n g) * Dc (ix2 n g)
      = Ideal.hostScatterAdd (rowScatter N E C wfS) z dI
        (mulf (Host.gather (rowGather N E C wfG) H sI) Nc) (ix2 n g)
  unfold Ideal.hostScatterAdd
  rw [hz, zero_add, zero_add, hDc, sum_mul_of_nonneg_of_ne_top _ _ (hD0 _) (hDt _)]
  refine Finset.sum_congr rfl ?_
  intro j hj
  obtain ⟨e, f, rfl⟩ : ∃ (e : Fin E) (f : Fin C), j = ix2 e f := ⟨j 0, j 1, eq_ix2 j⟩
  obtain ⟨hn, rfl⟩ := scatter_row_lands wfS dI e f n g (Finset.mem_filter.mp hj).2
  have hW' := hW e (by rw [hn]; exact Int.natCast_nonneg _)
  have hdn : D (ix1 (⟨min (dW (ix2 e (0 : Fin 1))).toInt.toNat (N - 1), by omega⟩ : Fin N)) = D (ix1 n) := by
    congr 2
    refine Fin.ext ?_
    show min (dW (ix2 e (0 : Fin 1))).toInt.toNat (N - 1) = n.val
    rw [hW', hn, Int.toNat_natCast]
    have := n.isLt
    omega
  rw [gather_row_apply hN wfG, mulf_apply, hDc, mulf_apply, gather_row_apply hN wfG, hNc,
    gather_vec_apply hN wfV, gather_vec_apply hN wfV, hdn, mul_assoc]

/-- The selected reciprocal square root — `1/√x` where `x` is positive, `0` elsewhere — is non-negative and finite:
    at a positive real it is the real `(√x)⁻¹`, at `⊤` it is `0`. -/
theorem rsqrt_sel_nonneg (x : EReal) :
    0 ≤ (if 0 < x then Ideal.rsqrt x else 0) ∧ (if 0 < x then Ideal.rsqrt x else 0) ≠ ⊤ := by
  by_cases hx : 0 < x
  · rw [if_pos hx]
    induction x using EReal.rec with
    | bot => exact absurd hx (by simp)
    | coe r =>
      have hr : 0 < r := by exact_mod_cast hx
      rw [Ideal.rsqrt_coe, if_neg (not_lt.2 hr.le), if_neg hr.ne']
      exact ⟨EReal.coe_nonneg.2 (inv_nonneg.2 (Real.sqrt_nonneg r)), EReal.coe_ne_top _⟩
    | top => exact ⟨le_of_eq Ideal.rsqrt_top.symm, by rw [Ideal.rsqrt_top]; exact EReal.zero_ne_top⟩
  · rw [if_neg hx]
    exact ⟨le_refl 0, EReal.zero_ne_top⟩

end Cert.Agg

end
-- ==== Proof.AggBridge.lean ====
/-
  The graph convolution's aggregation, at the two programs' own arrays.

  The reference weighs every edge message by the product of the scales of the edge's source and target and sums the
  weighted messages into the targets; the kernel program scales the node rows, sums the gathered rows into the targets
  and scales the rows again. Both are the same function of the features and the edge list on the extended reals: the
  general statement is `Cert.Agg.agg_eq`; this file checks its side conditions on the programs' arrays — the scale
  `dinv` (a reciprocal square root where the degree is positive, zero elsewhere) is non-negative and finite, its
  column broadcast reads the scale of the row, the zero operand reads zero, the wrapped target index is the target
  index wherever an update can land, and the broadcast edge weight is the product of the two gathered scales — and
  instantiates it at 64 and at 32 features.
-/
import proofs.«129775_j3642132267298_2_alg».proof.Proof.Agg
import proofs.«129775_j3642132267298_2_alg».proof.Proof.KDefs
import proofs.«129775_j3642132267298_2_alg».proof.Proof.RDefs
import Idealize.ShloMosaic.Lib.Pipeline.Value

set_option maxRecDepth 16384

noncomputable section

open scoped BigOperators

namespace Cert.Bridge

open Idealize.ShloMosaic Idealize.ShloMosaic.ValueIdx

/-! ## Broadcasts read at an index -/

/-- A scalar zero broadcast to any shape reads `0` everywhere. -/
theorem bcast_zero (t : Shape) (h : (⟨0, ![]⟩ : Shape).BroadcastsInDim t (![] : Fin 0 → Fin t.rank)) (j : t.Idx) :
    broadcastInDim t (![] : Fin 0 → Fin t.rank) h (constant (F := Ideal) ⟨0, ![]⟩ .f32 0x00000000#32) j = 0 := by
  show Ideal.ofBits .f32 0x00000000#32 = 0
  exact Ideal.ofBits_zero_f32

/-- A vector broadcast to a one-column matrix reads, at `(e, 0)`, the vector at `e`. -/
theorem bcast_vec_apply {E : Nat} {α : Type}
    (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ (![0] : Fin 1 → Fin 2) h x (ix2 e (0 : Fin 1)) = x (ix1 e) := by
  refine broadcastInDim_apply _ h x _ (ix1 e) ?_
  intro a
  match a with
  | ⟨0, _⟩ =>
    show e.val = if E = 1 then 0 else e.val
    have := e.isLt
    split <;> omega

/-- A one-column matrix broadcast along the columns reads, at `(e, f)`, the column at `(e, 0)`. -/
theorem bcast_col_apply {E C : Nat} {α : Type}
    (h : (⟨2, ![E, 1]⟩ : Shape).BroadcastsInDim ⟨2, ![E, C]⟩ (![0, 1] : Fin 2 → Fin 2))
    (x : (⟨2, ![E, 1]⟩ : Shape).Idx → α) (e : Fin E) (f : Fin C) :
    broadcastInDim ⟨2, ![E, C]⟩ (![0, 1] : Fin 2 → Fin 2) h x (ix2 e f) = x (ix2 e (0 : Fin 1)) := by
  refine broadcastInDim_apply _ h x _ (ix2 e (0 : Fin 1)) ?_
  intro a
  match a with
  | ⟨0, _⟩ =>
    show e.val = if E = 1 then 0 else e.val
    have := e.isLt
    split <;> omega
  | ⟨1, _⟩ =>
    show (0 : Nat) = if (1 : Nat) = 1 then 0 else f.val
    rfl

/-! ## The scale is non-negative and finite -/

/-- The select on "`x` is positive" between the reciprocal square root and zero, on one element. -/
theorem select_ogt_rsqrt (x : EReal) :
    Scalar.select (Ideal.cmp .ogt x 0) (Ideal.rsqrt x) (0 : EReal) = if 0 < x then Ideal.rsqrt x else 0 := by
  unfold Scalar.select Ideal.cmp
  by_cases h : 0 < x <;> simp [h]

/-- The reciprocal square root of an array where it is positive, zero elsewhere, is non-negative and finite at every
    index, whatever the array. -/
theorem sel_rsqrt_nonneg {s : Shape} (d z z' : FVec Ideal s .f32) (hz : ∀ i, z i = 0) (hz' : ∀ i, z' i = 0) (i : s.Idx) :
    0 ≤ select (cmpf (F := Ideal) .ogt d z) (Host.rsqrt d) z' i ∧ select (cmpf (F := Ideal) .ogt d z) (Host.rsqrt d) z' i ≠ ⊤ := by
  have e : select (cmpf (F := Ideal) .ogt d z) (Host.rsqrt d) z' i = if 0 < d i then Ideal.rsqrt (d i) else 0 := by
    show Scalar.select (Ideal.cmp .ogt (d i) (z i)) (Ideal.rsqrt (d i)) (z' i) = _
    rw [hz, hz']
    exact select_ogt_rsqrt (d i)
  rw [e]
  exact Cert.Agg.rsqrt_sel_nonneg (d i)

/-- The programs' scale array is non-negative and finite at every node (nothing about the degrees is used). -/
theorem dinv_nonneg (ei : (⟨Cert.KernelIdeal.S2x800000, .i32⟩ : BufTy).Contents (Elt Ideal)) (n : Cert.KernelIdeal.S50000.Idx) :
    0 ≤ Cert.KernelIdeal.RunValue.dinv (F := Ideal) ei n ∧ Cert.KernelIdeal.RunValue.dinv (F := Ideal) ei n ≠ ⊤ := by
  unfold Cert.KernelIdeal.RunValue.dinv
  exact sel_rsqrt_nonneg _ _ _ (bcast_zero _ _) (bcast_zero _ _) n

/-! ## The wrapped target index is the target index where that is non-negative -/

/-- An index array with its negative entries wrapped (`select (d < 0) (d + c) d`) reads the same as the array itself
    wherever the entry is non-negative; both as one-column matrices, read at `(e, 0)`. -/
theorem wrap_eq {E : Nat}
    (h h' : (⟨1, ![E]⟩ : Shape).BroadcastsInDim ⟨2, ![E, 1]⟩ (![0] : Fin 1 → Fin 2))
    (d z c : IVec ⟨1, ![E]⟩ 32) (hz : ∀ i, z i = 0#32) (e : Fin E)
    (hpos : 0 ≤ (broadcastInDim ⟨2, ![E, 1]⟩ (![0] : Fin 1 → Fin 2) h d (ix2 e (0 : Fin 1))).toInt) :
    broadcastInDim ⟨2, ![E, 1]⟩ (![0] : Fin 1 → Fin 2) h' (select (cmpi .slt d z) (addi d c) d) (ix2 e (0 : Fin 1))
      = broadcastInDim ⟨2, ![E, 1]⟩ (![0] : Fin 1 → Fin 2) h d (ix2 e (0 : Fin 1)) := by
  rw [bcast_vec_apply] at hpos
  rw [bcast_vec_apply, bcast_vec_apply]
  show Scalar.select (IntOp.cmpi .slt (d (ix1 e)) (z (ix1 e))) (IntOp.addi (d (ix1 e)) (c (ix1 e))) (d (ix1 e)) = d (ix1 e)
  rw [hz]
  have hb : IntOp.cmpi .slt (d (ix1 e)) 0#32 = 0#1 := by
    unfold IntOp.cmpi
    have : (d (ix1 e)).slt 0#32 = false := by
      rw [BitVec.slt_eq_decide]
      simpa using hpos
    simp [this]
  rw [hb, select_zero]

/-! ## The side facts at the programs' own arrays -/

section Side
open Cert.KernelIdeal.RunValue Cert.ReferenceIdeal.RefValue

/-- The scale column broadcast along `C` columns reads, at `(n, f)`, the scale of node `n`. -/
theorem dcol_apply (ei : (⟨Cert.KernelIdeal.S2x800000, .i32⟩ : BufTy).Contents (Elt Ideal)) {C : Nat}
    (h : (⟨2, ![50000, 1]⟩ : Shape).BroadcastsInDim ⟨2, ![50000, C]⟩ (![0, 1] : Fin 2 → Fin 2)) (n : Fin 50000) (f : Fin C) :
    broadcastInDim ⟨2, ![50000, C]⟩ (![0, 1] : Fin 2 → Fin 2) h (dcol (F := Ideal) ei) (ix2 n f) = dinv (F := Ideal) ei (ix1 n) := by
  rw [bcast_col_apply]
  unfold Cert.KernelIdeal.RunValue.dcol
  exact bcast_vec_apply _ _ n

/-- The wrapped target index of an edge is its target index where that is non-negative. -/
theorem widx_eq (ei : (⟨Cert.KernelIdeal.S2x800000, .i32⟩ : BufTy).Contents (Elt Ideal)) (e : Fin 850000)
    (hpos : 0 ≤ (didx (F := Ideal) ei (ix2 e (0 : Fin 1))).toInt) :
    widx (F := Ideal) ei (ix2 e (0 : Fin 1)) = didx (F := Ideal) ei (ix2 e (0 : Fin 1)) := by
  unfold Cert.KernelIdeal.RunValue.didx at hpos ⊢
  unfold Cert.ReferenceIdeal.RefValue.widx
  exact wrap_eq Cert.KernelIdeal.Facts₀.bcast_S850000_S850000x1_0 Cert.ReferenceIdeal.Facts₀.bcast_S850000_S850000x1_0
    (dsts (F := Ideal) ei)
    (broadcastInDim Cert.ReferenceIdeal.S850000 ![] Cert.ReferenceIdeal.Facts₀.bcast_S_S850000 (constantI Cert.ReferenceIdeal.S_ 32 0#32))
    (broadcastInDim Cert.ReferenceIdeal.S850000 ![] Cert.ReferenceIdeal.Facts₀.bcast_S_S850000 (constantI Cert.ReferenceIdeal.S_ 32 50000#32))
    (fun i => rfl) e hpos

/-- The edge weights broadcast along `C` columns read, at `(e, f)`, the product of the two gathered scales of edge `e`. -/
theorem norm_apply (ei : (⟨Cert.KernelIdeal.S2x800000, .i32⟩ : BufTy).Contents (Elt Ideal)) {C : Nat}
    (h : (⟨2, ![850000, 1]⟩ : Shape).BroadcastsInDim ⟨2, ![850000, C]⟩ (![0, 1] : Fin 2 → Fin 2)) (e : Fin 850000) (f : Fin C) :
    broadcastInDim ⟨2, ![850000, C]⟩ (![0, 1] : Fin 2 → Fin 2) h
        (broadcastInDim Cert.ReferenceIdeal.S850000x1 ![0] Cert.ReferenceIdeal.Facts₀.bcast_S850000_S850000x1_0 (norm (F := Ideal) ei)) (ix2 e f)
      = Host.gather (Cert.Agg.vecGather 50000 850000 Cert.ReferenceIdeal.Facts₀.gather_S50000_S850000x1_S850000_n_0_n_n_0_1_1_wf)
          (dinv (F := Ideal) ei) (sidx (F := Ideal) ei) (ix1 e)
        * Host.gather (Cert.Agg.vecGather 50000 850000 Cert.ReferenceIdeal.Facts₀.gather_S50000_S850000x1_S850000_n_0_n_n_0_1_1_wf)
          (dinv (F := Ideal) ei) (widx (F := Ideal) ei) (ix1 e) := by
  rw [bcast_col_apply]
  refine (bcast_vec_apply _ _ e).trans ?_
  unfold Cert.ReferenceIdeal.RefValue.norm
  exact mulf_apply _ _ _

end Side

/-! ## The two programs' aggregations are equal -/

section Main
open Cert.KernelIdeal.RunValue Cert.ReferenceIdeal.RefValue

/-- At 64 features the reference's aggregation (every edge message weighed by the product of its two end nodes'
    scales) is the kernel program's (the node rows scaled before and after the sum). -/
theorem aggR64_eq (H : (⟨Cert.KernelIdeal.S50000x64, .f32⟩ : BufTy).Contents (Elt Ideal))
    (ei : (⟨Cert.KernelIdeal.S2x800000, .i32⟩ : BufTy).Contents (Elt Ideal)) :
    Cert.ReferenceIdeal.RefValue.aggR64 (F := Ideal) H ei = Cert.KernelIdeal.RunValue.agg64 (F := Ideal) H ei := by
  have key := Cert.Agg.agg_eq (N := 50000) (E := 850000) (C := 64) (w := 32) (by decide)
    Cert.KernelIdeal.Facts₀.gather_S50000x64_S850000x1_S850000x64_1_0_n_n_0_1_164_wf
    Cert.ReferenceIdeal.Facts₀.gather_S50000_S850000x1_S850000_n_0_n_n_0_1_1_wf
    Cert.KernelIdeal.Facts₀.scatter_S50000x64_S850000x1_S850000x64_1_0_0_1_wf
    H (dinv (F := Ideal) ei) (fun n => (dinv_nonneg ei n).1) (fun n => (dinv_nonneg ei n).2)
    (broadcastInDim Cert.KernelIdeal.S50000x64 ![0, 1] Cert.KernelIdeal.Facts₀.bcast_S50000x1_S50000x64_0_1 (dcol (F := Ideal) ei))
    (by intro n f; exact dcol_apply ei _ n f)
    (broadcastInDim Cert.KernelIdeal.S50000x64 ![] Cert.KernelIdeal.Facts₀.bcast_S_S50000x64 (constant Cert.KernelIdeal.S_ .f32 0x00000000#32))
    (fun i => bcast_zero Cert.KernelIdeal.S50000x64 Cert.KernelIdeal.Facts₀.bcast_S_S50000x64 i)
    (sidx (F := Ideal) ei) (didx (F := Ideal) ei) (widx (F := Ideal) ei)
    (by intro e hpos; exact widx_eq ei e hpos)
    (broadcastInDim Cert.ReferenceIdeal.S850000x64 ![0, 1] Cert.ReferenceIdeal.Facts₀.bcast_S850000x1_S850000x64_0_1
      (broadcastInDim Cert.ReferenceIdeal.S850000x1 ![0] Cert.ReferenceIdeal.Facts₀.bcast_S850000_S850000x1_0 (norm (F := Ideal) ei)))
    (by intro e f; exact norm_apply ei _ e f)
  unfold Cert.ReferenceIdeal.RefValue.aggR64 Cert.KernelIdeal.RunValue.agg64
  exact key.symm

/-- The same at 32 features. -/
theorem aggR32_eq (H : (⟨Cert.KernelIdeal.S50000x32, .f32⟩ : BufTy).Contents (Elt Ideal))
    (ei : (⟨Cert.KernelIdeal.S2x800000, .i32⟩ : BufTy).Contents (Elt Ideal)) :
    Cert.ReferenceIdeal.RefValue.aggR32 (F := Ideal) H ei = Cert.KernelIdeal.RunValue.agg32 (F := Ideal) H ei := by
  have key := Cert.Agg.agg_eq (N := 50000) (E := 850000) (C := 32) (w := 32) (by decide)
    Cert.KernelIdeal.Facts₀.gather_S50000x32_S850000x1_S850000x32_1_0_n_n_0_1_132_wf
    Cert.ReferenceIdeal.Facts₀.gather_S50000_S850000x1_S850000_n_0_n_n_0_1_1_wf
    Cert.KernelIdeal.Facts₀.scatter_S50000x32_S850000x1_S850000x32_1_0_0_1_wf
    H (dinv (F := Ideal) ei) (fun n => (dinv_nonneg ei n).1) (fun n => (dinv_nonneg ei n).2)
    (broadcastInDim Cert.KernelIdeal.S50000x32 ![0, 1] Cert.KernelIdeal.Facts₀.bcast_S50000x1_S50000x32_0_1 (dcol (F := Ideal) ei))
    (by intro n f; exact dcol_apply ei _ n f)
    (broadcastInDim Cert.KernelIdeal.S50000x32 ![] Cert.KernelIdeal.Facts₀.bcast_S_S50000x32 (constant Cert.KernelIdeal.S_ .f32 0x00000000#32))
    (fun i => bcast_zero Cert.KernelIdeal.S50000x32 Cert.KernelIdeal.Facts₀.bcast_S_S50000x32 i)
    (sidx (F := Ideal) ei) (didx (F := Ideal) ei) (widx (F := Ideal) ei)
    (by intro e hpos; exact widx_eq ei e hpos)
    (broadcastInDim Cert.ReferenceIdeal.S850000x32 ![0, 1] Cert.ReferenceIdeal.Facts₀.bcast_S850000x1_S850000x32_0_1
      (broadcastInDim Cert.ReferenceIdeal.S850000x1 ![0] Cert.ReferenceIdeal.Facts₀.bcast_S850000_S850000x1_0 (norm (F := Ideal) ei)))
    (by intro e f; exact norm_apply ei _ e f)
  unfold Cert.ReferenceIdeal.RefValue.aggR32 Cert.KernelIdeal.RunValue.agg32
  exact key.symm

end Main

end Cert.Bridge

end
-- ==== Proof.ResultEq.lean ====
/-
  The two programs compute the same array. Stage by stage: the reference's first layer is the kernel's first
  aggregation of `mm` plus the first bias on every row; its second dense stage, of the rectified first layer, is `brm`
  of that aggregation at the bias row; its second aggregation is therefore the kernel's; and at every index `(0, y, n)`
  both results read that aggregation at `(n, y)` plus the second bias at `y` — the reference through its final reshape and
  transpose, the kernel through the padded rows, the biased transpose and the cut to the first 50000 columns.
-/
import proofs.«129775_j3642132267298_2_alg».proof.Proof.RDefs
import proofs.«129775_j3642132267298_2_alg».proof.Proof.KResult
import proofs.«129775_j3642132267298_2_alg».proof.Proof.RefDense
import proofs.«129775_j3642132267298_2_alg».proof.Proof.KTail
import proofs.«129775_j3642132267298_2_alg».proof.Proof.AggBridge
import Idealize.ShloMosaic.Lib.ValueIdx
import Idealize.ShloMosaic.Lib.ValueLayout

noncomputable section

namespace Cert.Bridge

open Idealize.ShloMosaic Idealize.ShloMosaic.ValueIdx
open Cert.ReferenceIdeal.RefValue (layer1 aggR64 aggR32 dot64_eq dot32_relu_eq ref_out_apply)
open Cert.KernelIdeal.RunValue (h0 agg64 agg32 padded tail padded_apply tail_apply)

/-- The reference's first layer is the kernel's first aggregation, of the features times the first weight matrix,
    plus the first bias on every row. -/
theorem layer1_eq (x : FVec Ideal Cert.KernelIdeal.S1x64x50000 .f32) (W1 : FVec Ideal Cert.KernelIdeal.S64x64 .f32)
    (b1 : FVec Ideal Cert.KernelIdeal.S64 .f32)
    (ei : (⟨Cert.KernelIdeal.S2x800000, .i32⟩ : BufTy).Contents (Elt Ideal)) :
    layer1 (F := Ideal) x W1 b1 ei
      = addf (F := Ideal) (φ := .f32) (agg64 (F := Ideal) (Cert.Spec.mm (h0 (F := Ideal) x) W1) ei)
          (broadcastInDim Cert.ReferenceIdeal.S50000x64 ![0, 1] Cert.ReferenceIdeal.Facts₀.bcast_S1x64_S50000x64_0_1
            (broadcastInDim Cert.ReferenceIdeal.S1x64 ![1] Cert.ReferenceIdeal.Facts₀.bcast_S64_S1x64_1 b1)) := by
  unfold layer1
  rw [dot64_eq, aggR64_eq]

/-- The reference's second dense stage, of the rectified first layer, is `brm` of the first aggregation at the first bias
    made a row. -/
theorem dense2_eq (x : FVec Ideal Cert.KernelIdeal.S1x64x50000 .f32) (W1 : FVec Ideal Cert.KernelIdeal.S64x64 .f32)
    (b1 : FVec Ideal Cert.KernelIdeal.S64 .f32) (W2 : FVec Ideal Cert.KernelIdeal.S64x32 .f32)
    (ei : (⟨Cert.KernelIdeal.S2x800000, .i32⟩ : BufTy).Contents (Elt Ideal)) :
    Host.dotGeneral (F := Ideal) Cert.ReferenceIdeal.dot_S50000x64_S64x32_S50000x32_1_0_0_1_n_n none
        (maximumf (F := Ideal) (φ := .f32) (layer1 (F := Ideal) x W1 b1 ei)
          (broadcastInDim Cert.ReferenceIdeal.S50000x64 ![] Cert.ReferenceIdeal.Facts₀.bcast_S_S50000x64
            (constant (F := Ideal) Cert.ReferenceIdeal.S_ .f32 0x00000000#32))) W2
      = Cert.Spec.brm (agg64 (F := Ideal) (Cert.Spec.mm (h0 (F := Ideal) x) W1) ei)
          (shapeCast Cert.KernelIdeal.S1x64 b1 Cert.KernelIdeal.Facts₀.shapeCasts_S64_S1x64) W2 := by
  rw [layer1_eq]
  exact dot32_relu_eq _ b1 _ (fun k => shapeCast_a_1a_apply b1 _ 0 k) W2

/-- The reference's result is the kernel's. -/
theorem result_eq (x : (⟨Cert.KernelIdeal.S1x64x50000, .f32⟩ : BufTy).Contents (Elt Ideal)) (W1 : (⟨Cert.KernelIdeal.S64x64, .f32⟩ : BufTy).Contents (Elt Ideal)) (b1 : (⟨Cert.KernelIdeal.S64, .f32⟩ : BufTy).Contents (Elt Ideal)) (W2 : (⟨Cert.KernelIdeal.S64x32, .f32⟩ : BufTy).Contents (Elt Ideal)) (b2 : (⟨Cert.KernelIdeal.S32, .f32⟩ : BufTy).Contents (Elt Ideal)) (ei : (⟨Cert.KernelIdeal.S2x800000, .i32⟩ : BufTy).Contents (Elt Ideal)) :
    Cert.ReferenceIdeal.RefValue.result (F := Ideal) x W1 b1 W2 b2 ei = Cert.KernelIdeal.RunValue.result x W1 b1 W2 b2 ei := by
  funext i
  obtain ⟨u, y, n, rfl⟩ : ∃ (u : Fin 1) (y : Fin 32) (n : Fin 50000), i = ix3 u y n := ⟨i 0, i 1, i 2, eq_ix3 i⟩
  obtain rfl : u = 0 := Subsingleton.elim _ _
  unfold Cert.ReferenceIdeal.RefValue.result Cert.KernelIdeal.RunValue.result
  rw [dense2_eq, aggR32_eq]
  refine (ref_out_apply _ b2 y n).trans ?_
  refine ((tail_apply _ y n).trans ?_).symm
  refine (Cert.Spec.bt_apply _ _ y ⟨n.val, by omega⟩).trans ?_
  exact congrArg₂ (· + ·) (padded_apply _ n y) (shapeCast_a_1a_apply b2 _ 0 y)

end Cert.Bridge

end
-- ==== Proof.lean ====
/-
  A two-layer graph convolution `D^(-1/2) (A + I) D^(-1/2) (h W) + b` over 50000 nodes and 800000 edges (self-loops
  appended), the first layer rectified: the kernel program against its reference, as extended reals.

  Both programs compute the degrees `deg` (ones summed into the edges' targets) and the scale `dinv = deg^(-1/2)`
  (zero where the degree is not positive) by the same operations. They differ in where the symmetric normalisation
  is applied. The reference weighs every edge's message by `dinv[source] * dinv[target]` before summing the messages
  into their targets. The kernel scales the node rows by `dinv`, gathers and sums them unweighted, and scales the
  summed rows by `dinv` again; its three dense stages (`h0 · W1`; `relu (a + b1) · W2`; the final bias and transpose)
  run as three pipelined regions over blocks of rows, the last one over a zero-padded array whose padding columns are
  cut off afterwards.

  The two agree because (i) an update that lands in row `n` of a scatter-add has target index exactly `n` — an index
  outside the array is dropped by the scatter, not clamped —, so the reference's gathered `dinv[target]` is
  `dinv n` for every edge that contributes to row `n`; and (ii) `dinv n` is a non-negative FINITE extended real
  (the inverse square root of a positive real, or of +∞, or zero), and multiplication by such a number distributes
  over any finite sum of extended reals, infinite terms included. So no finiteness of the features is needed, and the
  precondition is not opened. A matrix product accumulated from a zero accumulator over blocks of rows is the whole
  product row by row; a change of float format is the identity on extended reals.

  The modules: `Spec` (the three dense stages as whole-array functions), `Region0` / `Region1` / `Region2` (each
  region's output array after its grid is that function of its input arrays), `KDefs` / `KStages` / `KValue` (the
  host operations between the regions, and the fold through all segments read at the result), `KRun` (the kernel
  program's run with its result named), `RefRun` / `RDefs` (the reference's run and its result as a structured
  function), `Agg` / `AggBridge` (the aggregation identity and its instances at 64 and 32 features), `RefDense` /
  `KTail` (the dense stages and the layouts read at an index), `ResultEq` (the two results are one function).
-/
import proofs.«129775_j3642132267298_2_alg».proof.Defs
import proofs.«129775_j3642132267298_2_alg».proof.Proof.Gen.Kernel
import proofs.«129775_j3642132267298_2_alg».proof.Proof.Gen.Kernel.Skeleton
import proofs.«129775_j3642132267298_2_alg».proof.Proof.Gen.Kernel.Launch
import proofs.«129775_j3642132267298_2_alg».proof.Proof.Gen.Kernel.Points
import proofs.«129775_j3642132267298_2_alg».proof.Proof.Gen.Kernel.Frame
import proofs.«129775_j3642132267298_2_alg».proof.Proof.Gen.KernelIdeal
import proofs.«129775_j3642132267298_2_alg».proof.Proof.Gen.KernelIdeal.Skeleton
import proofs.«129775_j3642132267298_2_alg».proof.Proof.Gen.KernelIdeal.Launch
import proofs.«129775_j3642132267298_2_alg».proof.Proof.Gen.KernelIdeal.Points
import proofs.«129775_j3642132267298_2_alg».proof.Proof.Gen.KernelIdeal.Frame
import proofs.«129775_j3642132267298_2_alg».proof.Proof.Gen.ReferenceIdeal
import proofs.«129775_j3642132267298_2_alg».proof.Proof.Gen.Pre_finite_inputs
import proofs.«129775_j3642132267298_2_alg».proof.Proof.RefRun
import proofs.«129775_j3642132267298_2_alg».proof.Proof.KRun
import proofs.«129775_j3642132267298_2_alg».proof.Proof.KValue
import proofs.«129775_j3642132267298_2_alg».proof.Proof.RDefs
import proofs.«129775_j3642132267298_2_alg».proof.Proof.ResultEq
import Idealize.ShloMosaic.Adequacy
import Idealize.ShloMosaic.Init

noncomputable section

namespace Cert.Proof

open Idealize.ShloMosaic Idealize.SL.Sem

/-- The kernel program as printed runs, and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the kernel's function `result` of the
    arguments in their result arrays: the kernel by the fold through its segments, the reference because its
    composed term is the same function (`Cert.Bridge.result_eq`). -/
theorem algebraic : Cert.algebraic_KernelIdeal_ReferenceIdeal := by
  intro m ρ m' ρ' _ hagree
  refine ⟨fun c => Cert.KernelIdeal.RunValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.RunValue.fold_eq m ρ c), (h c).2⟩)
      (Cert.KernelIdeal.RunValue.run_fold (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]
    exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
